-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x64x64x32 : Shape := ⟨5, ![2, 32, 64, 64, 32]⟩
abbrev S8x512 : Shape := ⟨2, ![8, 512]⟩
abbrev S8 : Shape := ⟨1, ![8]⟩
abbrev S_ : Shape := ⟨0, ![]⟩

class Facts : Prop where
  bcast_S_S2x32x64x64x32 : S_.BroadcastsInDim S2x32x64x64x32 (![] : Fin 0 → Fin S2x32x64x64x32.rank)
  reducesTo_S2x32x64x64x32_S_d0_1_2_3_4 : S2x32x64x64x32.ReducesTo [0, 1, 2, 3, 4] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S2x32x64x64x32 .f32) (main_arg1 : IVec S8x512 32) (main_arg2 : FVec F S8 .f32) : IVec S_ 1 :=
  let main_v0 : FVec F S2x32x64x64x32 .f32 := Host.absf main_arg0
  let main_cst : FVec F S_ .f32 := constant S_ .f32 0x7F800000#32
  let main_v1 : FVec F S2x32x64x64x32 .f32 := broadcastInDim S2x32x64x64x32 ![] bcast_S_S2x32x64x64x32 main_cst
  let main_v2 : IVec S2x32x64x64x32 1 := cmpf .olt main_v0 main_v1
  let main_c : IVec S_ 1 := constantI S_ 1 1#1
  let main_v3 : IVec S_ 1 := (fun x v => Host.reduce IntOp.andi x v reducesTo_S2x32x64x64x32_S_d0_1_2_3_4 h_S_) main_v2 main_c
  let main_v4 : FVec F S8 .f32 := Host.absf main_arg2
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  main_v8
-- ==== Kernel.lean ====
abbrev S2x32x64x64x32 : Shape := ⟨5, ![2, 32, 64, 64, 32]⟩
abbrev S8x512 : Shape := ⟨2, ![8, 512]⟩
abbrev S8 : Shape := ⟨1, ![8]⟩
abbrev S2x64x64x32x32 : Shape := ⟨5, ![2, 64, 64, 32, 32]⟩
abbrev S262144x32 : Shape := ⟨2, ![262144, 32]⟩
abbrev S_ : Shape := ⟨0, ![]⟩
abbrev S8x512x1 : Shape := ⟨3, ![8, 512, 1]⟩
abbrev S8x512x32 : Shape := ⟨3, ![8, 512, 32]⟩
abbrev S512x8x32 : Shape := ⟨3, ![512, 8, 32]⟩
abbrev S4096x32 : Shape := ⟨2, ![4096, 32]⟩
abbrev S1x8 : Shape := ⟨2, ![1, 8]⟩
abbrev S512x8 : Shape := ⟨2, ![512, 8]⟩
abbrev S4096 : Shape := ⟨1, ![4096]⟩
abbrev S1x4096 : Shape := ⟨2, ![1, 4096]⟩
abbrev S16x1x256 : Shape := ⟨3, ![16, 1, 256]⟩
abbrev S1x1x256 : Shape := ⟨3, ![1, 1, 256]⟩
abbrev S256x32 : Shape := ⟨2, ![256, 32]⟩
abbrev S256x4096 : Shape := ⟨2, ![256, 4096]⟩
abbrev S256 : Shape := ⟨1, ![256]⟩
abbrev S256x1 : Shape := ⟨2, ![256, 1]⟩
abbrev S1x256 : Shape := ⟨2, ![1, 256]⟩

abbrev nBuf : Space → Nat
  | .hbm => 25
  | .vmem => 4
  | .smem => 0
  | _ => 0

abbrev bufTy : (tb : Table) → Fin (tcTables nBuf tb) → BufTy
  | .hbm, ⟨0, _⟩ => ⟨S2x32x64x64x32, .f32⟩
  | .hbm, ⟨1, _⟩ => ⟨S8x512, .i32⟩
  | .hbm, ⟨2, _⟩ => ⟨S8, .f32⟩
  | .hbm, ⟨3, _⟩ => ⟨S2x64x64x32x32, .f32⟩
  | .hbm, ⟨4, _⟩ => ⟨S262144x32, .f32⟩
  | .hbm, ⟨5, _⟩ => ⟨S_, .i32⟩
  | .hbm, ⟨6, _⟩ => ⟨S8x512, .i32⟩
  | .hbm, ⟨7, _⟩ => ⟨S8x512, .i1⟩
  | .hbm, ⟨8, _⟩ => ⟨S_, .i32⟩
  | .hbm, ⟨9, _⟩ => ⟨S8x512, .i32⟩
  | .hbm, ⟨10, _⟩ => ⟨S8x512, .i32⟩
  | .hbm, ⟨11, _⟩ => ⟨S8x512, .i32⟩
  | .hbm, ⟨12, _⟩ => ⟨S8x512x1, .i32⟩
  | .hbm, ⟨13, _⟩ => ⟨S8x512x32, .f32⟩
  | .hbm, ⟨14, _⟩ => ⟨S512x8x32, .f32⟩
  | .hbm, ⟨15, _⟩ => ⟨S4096x32, .f32⟩
  | .hbm, ⟨16, _⟩ => ⟨S1x8, .f32⟩
  | .hbm, ⟨17, _⟩ => ⟨S512x8, .f32⟩
  | .hbm, ⟨18, _⟩ => ⟨S4096, .f32⟩
  | .hbm, ⟨19, _⟩ => ⟨S1x4096, .f32⟩
  | .hbm, ⟨20, _⟩ => ⟨S16x1x256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S4096x32, .f32⟩
  | .local _ .vmem, ⟨1, _⟩ => ⟨S1x4096, .f32⟩
  | .local _ .vmem, ⟨2, _⟩ => ⟨S1x1x256, .f32⟩
  | .local _ .vmem, ⟨3, _⟩ => ⟨S1x1x256, .f32⟩
  | _, _ => ⟨S2x32x64x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def k0_off2 (i : grid0.Coords) : Fin 2 → Nat :=
  let c0_4 : Index := 0#32
  let arg0 : BitVec 32 := BitVec.ofNat 32 (i 0).val
  let c256_i32 : BitVec 32 := 256#32
  let v0 : BitVec 32 := Scalar.muli arg0 c256_i32
  let v1 : BitVec 32 := v0
  let v15 : Index := Scalar.indexCast v1
  ![0, v15.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S2x32x64x64x32_S2x64x64x32x32_0_2_3_4_1 : S2x32x64x64x32.Transposes [0, 2, 3, 4, 1] S2x64x64x32x32
  shapeCasts_S2x64x64x32x32_S262144x32 : S2x64x64x32x32.ShapeCasts S262144x32
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  transposes_S8x512x32_S512x8x32_1_0_2 : S8x512x32.Transposes [1, 0, 2] S512x8x32
  shapeCasts_S512x8x32_S4096x32 : S512x8x32.ShapeCasts S4096x32
  shapeCasts_S8_S1x8 : S8.ShapeCasts S1x8
  bcast_S1x8_S512x8_0_1 : S1x8.BroadcastsInDim S512x8 (![0, 1] : Fin 2 → Fin S512x8.rank)
  shapeCasts_S512x8_S4096 : S512x8.ShapeCasts S4096
  shapeCasts_S4096_S1x4096 : S4096.ShapeCasts S1x4096
  h_S256x32 : 0 < S256x32.numel
  shapeCasts_S256x32_S256x32 : S256x32.ShapeCasts S256x32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  reduces_S256x4096_S256 : S256x4096.Reduces [1] S256
  shapeCasts_S256_S256x1 : S256.ShapeCasts S256x1
  broadcasts_S256x1_S256x4096 : S256x1.Broadcasts S256x4096
  h_S1x256 : 0 < S1x256.numel
  shapeCasts_S1x256_S1x256 : S1x256.ShapeCasts S1x256
  transposes_S1x256_p1_0_S256x1 : S1x256.Transposes [1, 0] S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  iota_S256x1_d0_w32 : S256x1.Iotas .tc 32 [0]
  iota_S1x4096_d1_w32 : S1x4096.Iotas .tc 32 [1]
  natLt_1_32 : 1 < 32
  transposes_S256x1_p1_0_S1x256 : S256x1.Transposes [1, 0] S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  reducesTo_S16x1x256_S_d0_1_2 : S16x1x256.ReducesTo [0, 1, 2] S_
  h_S_ : 0 < S_.numel
  gather_S262144x32_S8x512x1_S8x512x32_2_0_n_n_0_2_132_wf : GatherDims.WF S262144x32 S8x512x1 S8x512x32 [2] [0] [] [0] [] 2 ![1, 32]
  dot_S256x32_S4096x32_S256x4096_1_1_0_0_n_n_wf : DotDims.WF S256x32 S4096x32 S256x4096 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x32.size a ≤ S4096x32.size a
  k0_off2_inb : ∀ i : grid0.Coords, ∀ a, (k0_off2 i) a + S1x256.size a ≤ S1x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S4096x32.size a
  hwx0_0 : ∀ i : grid0.Coords, EltTy.bits .f32 = 32 ∨ (Rect.block (s := S4096x32) S4096x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S16x1x256.size a
  hwx0_2 : ∀ i : grid0.Coords, EltTy.bits .f32 = 32 ∨ (Rect.block (s := S16x1x256) S1x1x256.size (cc0_transform_2 i) (hinb0_2 i)).WholeWords (EltTy.packing .f32)

variable [Facts₀]

def gather_S262144x32_S8x512x1_S8x512x32_2_0_n_n_0_2_132 : GatherDims S262144x32 S8x512x1 S8x512x32 where
  offsetDims := [2]
  collapsedSliceDims := [0]
  operandBatchingDims := []
  startIndicesBatchingDims := []
  startIndexMap := [0]
  indexVectorDim := 2
  sliceSizes := ![1, 32]
  wf := gather_S262144x32_S8x512x1_S8x512x32_2_0_n_n_0_2_132_wf
def dot_S256x32_S4096x32_S256x4096_1_1_0_0_n_n : DotDims S256x32 S4096x32 S256x4096 where
  lhsContracting := [1]
  rhsContracting := [1]
  lhsNonContracting := [0]
  rhsNonContracting := [0]
  lhsBatch := []
  rhsBatch := []
  wf := dot_S256x32_S4096x32_S256x4096_1_1_0_0_n_n_wf

abbrev win0_0 : Pipeline.Window sig grid0 :=
  Pipeline.Window.ofSpec (Memref.whole main_v10) S4096x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x32x64x64x32 : Shape := ⟨5, ![2, 32, 64, 64, 32]⟩
abbrev S8x512 : Shape := ⟨2, ![8, 512]⟩
abbrev S8 : Shape := ⟨1, ![8]⟩
abbrev S2x64x64x32x32 : Shape := ⟨5, ![2, 64, 64, 32, 32]⟩
abbrev S262144x32 : Shape := ⟨2, ![262144, 32]⟩
abbrev S_ : Shape := ⟨0, ![]⟩
abbrev S8x512x1 : Shape := ⟨3, ![8, 512, 1]⟩
abbrev S8x512x32 : Shape := ⟨3, ![8, 512, 32]⟩
abbrev S512x8x32 : Shape := ⟨3, ![512, 8, 32]⟩
abbrev S4096x32 : Shape := ⟨2, ![4096, 32]⟩
abbrev S32x4096 : Shape := ⟨2, ![32, 4096]⟩
abbrev S4096x4096 : Shape := ⟨2, ![4096, 4096]⟩
abbrev S4096 : Shape := ⟨1, ![4096]⟩
abbrev S4096x1 : Shape := ⟨2, ![4096, 1]⟩
abbrev S8x1 : Shape := ⟨2, ![8, 1]⟩
abbrev S1x8 : Shape := ⟨2, ![1, 8]⟩
abbrev S8x8 : Shape := ⟨2, ![8, 8]⟩
abbrev S1x8x1x8 : Shape := ⟨4, ![1, 8, 1, 8]⟩
abbrev S512x8x512x8 : Shape := ⟨4, ![512, 8, 512, 8]⟩

abbrev nBuf : Space → Nat
  | .hbm => 71
  | .vmem => 0
  | .smem => 0
  | _ => 0

abbrev bufTy : (tb : Table) → Fin (tcTables nBuf tb) → BufTy
  | .hbm, ⟨0, _⟩ => ⟨S2x32x64x64x32, .f32⟩
  | .hbm, ⟨1, _⟩ => ⟨S8x512, .i32⟩
  | .hbm, ⟨2, _⟩ => ⟨S8, .f32⟩
  | .hbm, ⟨3, _⟩ => ⟨S2x64x64x32x32, .f32⟩
  | .hbm, ⟨4, _⟩ => ⟨S262144x32, .f32⟩
  | .hbm, ⟨5, _⟩ => ⟨S_, .i32⟩
  | .hbm, ⟨6, _⟩ => ⟨S8x512, .i32⟩
  | .hbm, ⟨7, _⟩ => ⟨S8x512, .i1⟩
  | .hbm, ⟨8, _⟩ => ⟨S_, .i32⟩
  | .hbm, ⟨9, _⟩ => ⟨S8x512, .i32⟩
  | .hbm, ⟨10, _⟩ => ⟨S8x512, .i32⟩
  | .hbm, ⟨11, _⟩ => ⟨S8x512, .i32⟩
  | .hbm, ⟨12, _⟩ => ⟨S8x512x1, .i32⟩
  | .hbm, ⟨13, _⟩ => ⟨S8x512x32, .f32⟩
  | .hbm, ⟨14, _⟩ => ⟨S512x8x32, .f32⟩
  | .hbm, ⟨15, _⟩ => ⟨S4096x32, .f32⟩
  | .hbm, ⟨16, _⟩ => ⟨S32x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S8x1, .f32⟩
  | .hbm, ⟨27, _⟩ => ⟨S1x8, .f32⟩
  | .hbm, ⟨28, _⟩ => ⟨S8x8, .f32⟩
  | .hbm, ⟨29, _⟩ => ⟨S8x8, .f32⟩
  | .hbm, ⟨30, _⟩ => ⟨S8x8, .i1⟩
  | .hbm, ⟨31, _⟩ => ⟨S8x8, .f32⟩
  | .hbm, ⟨32, _⟩ => ⟨S1x8x1x8, .f32⟩
  | .hbm, ⟨33, _⟩ => ⟨S512x8x512x8, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .i32⟩
  | .hbm, ⟨39, _⟩ => ⟨S4096x4096, .i32⟩
  | .hbm, ⟨40, _⟩ => ⟨S_, .i32⟩
  | .hbm, ⟨41, _⟩ => ⟨S4096x4096, .i32⟩
  | .hbm, ⟨42, _⟩ => ⟨S4096x4096, .i32⟩
  | .hbm, ⟨43, _⟩ => ⟨S4096x4096, .i1⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S2x32x64x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩

abbrev nD : Nat := 1
abbrev τ : Topo := Topo.v7x

variable {F : FTy → Type} [FloatOps F]

class Facts₀ : Prop where
  transposes_S2x32x64x64x32_S2x64x64x32x32_0_2_3_4_1 : S2x32x64x64x32.Transposes [0, 2, 3, 4, 1] S2x64x64x32x32
  shapeCasts_S2x64x64x32x32_S262144x32 : S2x64x64x32x32.ShapeCasts S262144x32
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  transposes_S8x512x32_S512x8x32_1_0_2 : S8x512x32.Transposes [1, 0, 2] S512x8x32
  shapeCasts_S512x8x32_S4096x32 : S512x8x32.ShapeCasts S4096x32
  transposes_S4096x32_S32x4096_1_0 : S4096x32.Transposes [1, 0] S32x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  shapeCasts_S8x8_S1x8x1x8 : S8x8.ShapeCasts S1x8x1x8
  bcast_S1x8x1x8_S512x8x512x8_0_1_2_3 : S1x8x1x8.BroadcastsInDim S512x8x512x8 (![0, 1, 2, 3] : Fin 4 → Fin S512x8x512x8.rank)
  shapeCasts_S512x8x512x8_S4096x4096 : S512x8x512x8.ShapeCasts S4096x4096
  bcast_S_S4096 : S_.BroadcastsInDim S4096 (![] : Fin 0 → Fin S4096.rank)
  reducesTo_S4096_S_d0 : S4096.ReducesTo [0] S_
  gather_S262144x32_S8x512x1_S8x512x32_2_0_n_n_0_2_132_wf : GatherDims.WF S262144x32 S8x512x1 S8x512x32 [2] [0] [] [0] [] 2 ![1, 32]
  dot_S4096x32_S32x4096_S4096x4096_1_0_0_1_n_n_wf : DotDims.WF S4096x32 S32x4096 S4096x4096 [1] [0] [0] [1] [] []

variable [Facts₀]

def gather_S262144x32_S8x512x1_S8x512x32_2_0_n_n_0_2_132 : GatherDims S262144x32 S8x512x1 S8x512x32 where
  offsetDims := [2]
  collapsedSliceDims := [0]
  operandBatchingDims := []
  startIndicesBatchingDims := []
  startIndexMap := [0]
  indexVectorDim := 2
  sliceSizes := ![1, 32]
  wf := gather_S262144x32_S8x512x1_S8x512x32_2_0_n_n_0_2_132_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf

class Facts : Prop extends Facts₀ where

variable [Facts]
-- ==== Proof.Spec.lean ====
/-
  The supervised contrastive loss over 4096 anchor rows of 32 features in 8 classes, as one function on the
  extended reals.

  Row r of the anchor matrix A belongs to class r mod 8 (the rows are view-major: eight classes per view, 512
  views).  With logit(r, q) = <A_r, A_q> / T, shifted by its row maximum, the loss of row r is minus the mean over
  the positives q (same label as r, q ≠ r) of
      shifted(r, q) - log (exp shifted(r, q) + sum over the negatives n of exp shifted(r, n)),
  and the loss is the mean of the row losses.  The temperature enters as the factor 1/T with T the binary value of
  the f32 word for 0.07, which is the rational 9395241 / 134217728: dividing by T and multiplying by
  134217728 / 9395241 are the same map on every extended real.  Every row has at least one positive (the row eight
  places away), so the number of positives is at least one.
-/
import Mathlib.Tactic
import Idealize.ShloMosaic.PureOps.Ideal
import Idealize.ShloMosaic.PureOps.Ideal.Laws
import Idealize.ShloMosaic.Lib.ValueIdx

noncomputable section

namespace Cert.SupCon

open Idealize.ShloMosaic Idealize.ShloMosaic.ValueIdx
open Classical

/-- The anchor matrix: 4096 rows of 32 features. -/
abbrev Anchor := (⟨2, ![4096, 32]⟩ : Shape).Idx → EReal
/-- One label per class. -/
abbrev Classes := (⟨1, ![8]⟩ : Shape).Idx → EReal

/-- The reciprocal of the temperature. -/
def invTemp : EReal := ((134217728 / 9395241 : ℝ) : EReal)

/-- The class of row q: rows are view-major, eight classes per view. -/
def classOf (q : Fin 4096) : Fin 8 := ⟨q.val % 8, Nat.mod_lt _ (by norm_num)⟩

/-- The label of row q. -/
def label (y : Classes) (q : Fin 4096) : EReal := y (ix1 (classOf q))

/-- The similarity of rows r and q over the temperature. -/
def logit (A : Anchor) (r q : Fin 4096) : EReal := (∑ d : Fin 32, A (ix2 r d) * A (ix2 q d)) * invTemp

/-- The largest logit of row r. -/
def rowMax (A : Anchor) (r : Fin 4096) : EReal := ⨆ q : Fin 4096, logit A r q

/-- The logit less its row's maximum. -/
def shifted (A : Anchor) (r q : Fin 4096) : EReal := logit A r q - rowMax A r

/-- The sum of exp shifted over the rows whose label differs from row r's. -/
def negSum (A : Anchor) (y : Classes) (r : Fin 4096) : EReal :=
  ∑ q : Fin 4096, if label y r = label y q then (0 : EReal) else Ideal.exp (shifted A r q)

/-- The log-probability of q against r's negatives. -/
def logProb (A : Anchor) (y : Classes) (r q : Fin 4096) : EReal :=
  shifted A r q - Ideal.log (Ideal.exp (shifted A r q) + negSum A y r)

/-- q is a positive of r: same label, another row. -/
def positive (y : Classes) (r q : Fin 4096) : Prop := label y r = label y q ∧ r ≠ q

/-- The sum of the log-probabilities over r's positives. -/
def posSum (A : Anchor) (y : Classes) (r : Fin 4096) : EReal :=
  ∑ q : Fin 4096, if positive y r q then logProb A y r q else 0

/-- The number of r's positives. -/
def posCount (y : Classes) (r : Fin 4096) : EReal :=
  ∑ q : Fin 4096, if positive y r q then (1 : EReal) else 0

/-- The loss of row r: minus the mean log-probability of its positives (the factor -1 kept as its f32 word). -/
def rowLoss (A : Anchor) (y : Classes) (r : Fin 4096) : EReal :=
  Ideal.ofBits .f32 0xBF800000#32 * Ideal.div (posSum A y r) (posCount y r)

/-- The loss: the mean of the row losses (the divisor 4096 kept as its f32 word). -/
def loss (A : Anchor) (y : Classes) : EReal :=
  Ideal.div (∑ r : Fin 4096, rowLoss A y r) (Ideal.ofBits .f32 0x45800000#32)

/-! ## The temperature -/

/-- The f32 word for 0.07 denotes 9395241 / 2^27: exponent field 123, significand 0x0F5C29. -/
theorem ofBits_temp : Ideal.ofBits .f32 0x3D8F5C29#32 = ((9395241 / 134217728 : ℝ) : EReal) := by
  simp [Ideal.ofBits, Ideal.ieee, -EReal.coe_mul] <;> norm_num

/-- Dividing by the temperature is multiplying by its reciprocal, on every extended real. -/
theorem div_temp (x : EReal) : Ideal.div x (Ideal.ofBits .f32 0x3D8F5C29#32) = x * invTemp := by
  rw [ofBits_temp, Ideal.div_coe (by norm_num) x, invTemp]
  congr 2
  norm_num

/-- The f32 word 0x3F800000 denotes 1. -/
theorem ofBits_one : Ideal.ofBits .f32 0x3F800000#32 = (1 : EReal) := by
  simp [Ideal.ofBits, Ideal.ieee, -EReal.coe_mul] <;> norm_num

/-! ## Every row has a positive -/

/-- The row eight places from r (above it, or below it for the last rows): same class, another row. -/
def partner (r : Fin 4096) : Fin 4096 :=
  if h : r.val < 8 then ⟨r.val + 8, by omega⟩ else ⟨r.val - 8, by omega⟩

theorem partner_positive (y : Classes) (r : Fin 4096) : positive y r (partner r) := by
  unfold positive label classOf partner
  constructor
  · congr 2
    apply Fin.ext
    by_cases h : r.val < 8
    · simp only [dif_pos h]; show r.val % 8 = (r.val + 8) % 8; omega
    · simp only [dif_neg h]; show r.val % 8 = (r.val - 8) % 8; omega
  · intro e
    have := congrArg Fin.val e
    by_cases h : r.val < 8
    · simp only [dif_pos h] at this; omega
    · simp only [dif_neg h] at this; omega

/-- So the number of positives is at least one. -/
theorem one_le_posCount (y : Classes) (r : Fin 4096) : 1 ≤ posCount y r := by
  unfold posCount
  have h := Finset.single_le_sum (f := fun q : Fin 4096 => if positive y r q then (1 : EReal) else 0)
    (fun q _ => by split <;> simp) (Finset.mem_univ (partner r))
  simpa only [if_pos (partner_positive y r)] using h

/-- and the floor of one under it does nothing. -/
theorem max_posCount_one (y : Classes) (r : Fin 4096) : max (posCount y r) 1 = posCount y r :=
  max_eq_left (one_le_posCount y r)

end Cert.SupCon

end
-- ==== Proof.LibRowDots.lean ====
/-
  Products of rows against rows, read at an index, on the extended reals.

  A contraction whose two operands are both contracted on their LAST axis — [M,K] against [N,K] (a `tpu.matmul`
  into the zero accumulator, or the host's `dot_general`), [B,M,K] against a shared [N,K], and the batched
  [B,M,K] against [B,N,K] — is, at the output index (p, f) or (g, p, f), the sum over d of the left row's entry d
  times the right row's entry d. Each statement holds for any dimension record equal to the literal one.
-/
import Idealize.ShloMosaic.PureOps.Ideal.Laws
import Idealize.ShloMosaic.Lib.ValueIdx

noncomputable section

namespace Cert.LibRowDots

open Idealize.ShloMosaic Idealize.ShloMosaic.ValueIdx

/-! ## [M,K] against [N,K] -/

section Rows

variable {M K N : Nat}
variable (wf : DotDims.WF ⟨2, ![M, K]⟩ ⟨2, ![N, K]⟩ ⟨2, ![M, N]⟩ [1] [1] [0] [0] [] [])

/-- The literal record: both operands contracted on axis 1, no batch axis. -/
abbrev rows : DotDims ⟨2, ![M, K]⟩ ⟨2, ![N, K]⟩ ⟨2, ![M, N]⟩ := ⟨[1], [1], [0], [0], [], [], wf⟩

theorem rows_lhs0 (i : (⟨2, ![M, N]⟩ : Shape).Idx) (q : (rows wf).contr.Idx) : ((rows wf).lhsIdx i q 0).val = (i 0).val := by
  unfold DotDims.lhsIdx
  rw [dif_neg (show ¬(0 : Fin 2) ∈ (rows wf).lhsBatch from (by decide : ¬(0 : Fin 2) ∈ ([] : List (Fin 2)))), dif_pos (show (0 : Fin 2) ∈ (rows wf).lhsNonContracting from (by decide : (0 : Fin 2) ∈ ([0] : List (Fin 2))))]
  rfl

theorem rows_lhs1 (i : (⟨2, ![M, N]⟩ : Shape).Idx) (q : (rows wf).contr.Idx) : ((rows wf).lhsIdx i q 1).val = (q ⟨0, Nat.one_pos⟩).val :=
  (rows wf).lhsIdx_val_of_single rfl i q

theorem rows_rhs0 (i : (⟨2, ![M, N]⟩ : Shape).Idx) (q : (rows wf).contr.Idx) : ((rows wf).rhsIdx i q 0).val = (i 1).val := by
  unfold DotDims.rhsIdx
  rw [dif_neg (show ¬(0 : Fin 2) ∈ (rows wf).rhsBatch from (by decide : ¬(0 : Fin 2) ∈ ([] : List (Fin 2)))), dif_pos (show (0 : Fin 2) ∈ (rows wf).rhsNonContracting from (by decide : (0 : Fin 2) ∈ ([0] : List (Fin 2))))]
  rfl

theorem rows_rhs1 (i : (⟨2, ![M, N]⟩ : Shape).Idx) (q : (rows wf).contr.Idx) : ((rows wf).rhsIdx i q 1).val = (q ⟨0, Nat.one_pos⟩).val :=
  (rows wf).rhsIdx_val_of_single rfl i q

/-- The sum over the contraction index is the sum over d of row p of the left times row f of the right. -/
theorem rows_sum {φ₁ φ₂ : FTy} (a : FVec Ideal ⟨2, ![M, K]⟩ φ₁) (w : FVec Ideal ⟨2, ![N, K]⟩ φ₂) (p : Fin M) (f : Fin N) :
    ∑ k : (rows wf).contr.Idx, a ((rows wf).lhsIdx (ix2 p f) k) * w ((rows wf).rhsIdx (ix2 p f) k)
      = ∑ d : Fin K, a (ix2 p d) * w (ix2 f d) := by
  rw [← Equiv.sum_comp (contrEquiv1 (rows wf) K rfl rfl).symm]
  refine Finset.sum_congr rfl fun k _ => ?_
  have hk := contrEquiv1_symm_val (rows wf) K rfl rfl k
  have el : (rows wf).lhsIdx (ix2 p f) ((contrEquiv1 (rows wf) K rfl rfl).symm k) = ix2 p k := funext fun x => Fin.ext (by
    match x with
    | ⟨0, _⟩ => exact rows_lhs0 wf _ _
    | ⟨1, _⟩ => exact (rows_lhs1 wf _ _).trans hk)
  have er : (rows wf).rhsIdx (ix2 p f) ((contrEquiv1 (rows wf) K rfl rfl).symm k) = ix2 f k := funext fun x => Fin.ext (by
    match x with
    | ⟨0, _⟩ => exact rows_rhs0 wf _ _
    | ⟨1, _⟩ => exact (rows_rhs1 wf _ _).trans hk)
  rw [el, er]

/-- A `tpu.matmul` of rows against rows into the zero accumulator, at (p, f). -/
theorem matmul_rows {φ₁ φ₂ : FTy} (D : DotDims ⟨2, ![M, K]⟩ ⟨2, ![N, K]⟩ ⟨2, ![M, N]⟩) (hD : D = rows wf)
    (prec : Option ContractPrecision) (a : FVec Ideal ⟨2, ![M, K]⟩ φ₁) (w : FVec Ideal ⟨2, ![N, K]⟩ φ₂) (p : Fin M) (f : Fin N) :
    matmul D prec a w (constant (F := Ideal) ⟨2, ![M, N]⟩ .f32 0x00000000#32) (ix2 p f) = ∑ d : Fin K, a (ix2 p d) * w (ix2 f d) := by
  subst hD
  exact (Ideal.matmul_constant_zero_apply _ prec a w (ix2 p f)).trans (rows_sum wf a w p f)

end Rows

/-! ## [B,M,K] against a shared [N,K] -/

section Shared

variable {B M K N : Nat}
variable (wf : DotDims.WF ⟨3, ![B, M, K]⟩ ⟨2, ![N, K]⟩ ⟨3, ![B, M, N]⟩ [2] [1] [0, 1] [0] [] [])

/-- The literal record: the left contracted on axis 2, the right on axis 1, no batch axis. -/
abbrev shared : DotDims ⟨3, ![B, M, K]⟩ ⟨2, ![N, K]⟩ ⟨3, ![B, M, N]⟩ := ⟨[2], [1], [0, 1], [0], [], [], wf⟩

theorem shared_lhs0 (i : (⟨3, ![B, M, N]⟩ : Shape).Idx) (q : (shared wf).contr.Idx) : ((shared wf).lhsIdx i q 0).val = (i 0).val := by
  unfold DotDims.lhsIdx
  rw [dif_neg (show ¬(0 : Fin 3) ∈ (shared wf).lhsBatch from (by decide : ¬(0 : Fin 3) ∈ ([] : List (Fin 3)))), dif_pos (show (0 : Fin 3) ∈ (shared wf).lhsNonContracting from (by decide : (0 : Fin 3) ∈ ([0, 1] : List (Fin 3))))]
  rfl

theorem shared_lhs1 (i : (⟨3, ![B, M, N]⟩ : Shape).Idx) (q : (shared wf).contr.Idx) : ((shared wf).lhsIdx i q 1).val = (i 1).val := by
  unfold DotDims.lhsIdx
  rw [dif_neg (show ¬(1 : Fin 3) ∈ (shared wf).lhsBatch from (by decide : ¬(1 : Fin 3) ∈ ([] : List (Fin 3)))), dif_pos (show (1 : Fin 3) ∈ (shared wf).lhsNonContracting from (by decide : (1 : Fin 3) ∈ ([0, 1] : List (Fin 3))))]
  rfl

theorem shared_lhs2 (i : (⟨3, ![B, M, N]⟩ : Shape).Idx) (q : (shared wf).contr.Idx) : ((shared wf).lhsIdx i q 2).val = (q ⟨0, Nat.one_pos⟩).val :=
  (shared wf).lhsIdx_val_of_single rfl i q

theorem shared_rhs0 (i : (⟨3, ![B, M, N]⟩ : Shape).Idx) (q : (shared wf).contr.Idx) : ((shared wf).rhsIdx i q 0).val = (i 2).val := by
  unfold DotDims.rhsIdx
  rw [dif_neg (show ¬(0 : Fin 2) ∈ (shared wf).rhsBatch from (by decide : ¬(0 : Fin 2) ∈ ([] : List (Fin 2)))), dif_pos (show (0 : Fin 2) ∈ (shared wf).rhsNonContracting from (by decide : (0 : Fin 2) ∈ ([0] : List (Fin 2))))]
  rfl

theorem shared_rhs1 (i : (⟨3, ![B, M, N]⟩ : Shape).Idx) (q : (shared wf).contr.Idx) : ((shared wf).rhsIdx i q 1).val = (q ⟨0, Nat.one_pos⟩).val :=
  (shared wf).rhsIdx_val_of_single rfl i q

/-- The host's `dot_general` of every chunk's rows against one shared table's rows, at (g, p, f). -/
theorem dot_shared {φ₁ φ₂ : FTy} (D : DotDims ⟨3, ![B, M, K]⟩ ⟨2, ![N, K]⟩ ⟨3, ![B, M, N]⟩) (hD : D = shared wf)
    (prec : Option ContractPrecision) (a : FVec Ideal ⟨3, ![B, M, K]⟩ φ₁) (w : FVec Ideal ⟨2, ![N, K]⟩ φ₂) (g : Fin B) (p : Fin M) (f : Fin N) :
    Host.dotGeneral D prec a w (ix3 g p f) = ∑ d : Fin K, a (ix3 g p d) * w (ix2 f d) := by
  subst hD
  refine (Ideal.dotGeneral_apply _ prec .single a w (ix3 g p f)).trans ?_
  rw [← Equiv.sum_comp (contrEquiv1 (shared wf) K rfl rfl).symm]
  refine Finset.sum_congr rfl fun k _ => ?_
  have hk := contrEquiv1_symm_val (shared wf) K rfl rfl k
  have el : (shared wf).lhsIdx (ix3 g p f) ((contrEquiv1 (shared wf) K rfl rfl).symm k) = ix3 g p k := funext fun x => Fin.ext (by
    match x with
    | ⟨0, _⟩ => exact shared_lhs0 wf _ _
    | ⟨1, _⟩ => exact shared_lhs1 wf _ _
    | ⟨2, _⟩ => exact (shared_lhs2 wf _ _).trans hk)
  have er : (shared wf).rhsIdx (ix3 g p f) ((contrEquiv1 (shared wf) K rfl rfl).symm k) = ix2 f k := funext fun x => Fin.ext (by
    match x with
    | ⟨0, _⟩ => exact shared_rhs0 wf _ _
    | ⟨1, _⟩ => exact (shared_rhs1 wf _ _).trans hk)
  rw [el, er]

end Shared

/-! ## [B,M,K] against [B,N,K], chunk by chunk -/

section Batched

variable {B M K N : Nat}
variable (wf : DotDims.WF ⟨3, ![B, M, K]⟩ ⟨3, ![B, N, K]⟩ ⟨3, ![B, M, N]⟩ [2] [2] [1] [1] [0] [0])

/-- The literal record: axis 0 the batch axis of both, both contracted on axis 2. -/
abbrev batched : DotDims ⟨3, ![B, M, K]⟩ ⟨3, ![B, N, K]⟩ ⟨3, ![B, M, N]⟩ := ⟨[2], [2], [1], [1], [0], [0], wf⟩

theorem batched_lhs0 (i : (⟨3, ![B, M, N]⟩ : Shape).Idx) (q : (batched wf).contr.Idx) : ((batched wf).lhsIdx i q 0).val = (i 0).val := by
  unfold DotDims.lhsIdx
  rw [dif_pos (show (0 : Fin 3) ∈ (batched wf).lhsBatch from (by decide : (0 : Fin 3) ∈ ([0] : List (Fin 3))))]
  rfl

theorem batched_lhs1 (i : (⟨3, ![B, M, N]⟩ : Shape).Idx) (q : (batched wf).contr.Idx) : ((batched wf).lhsIdx i q 1).val = (i 1).val := by
  unfold DotDims.lhsIdx
  rw [dif_neg (show ¬(1 : Fin 3) ∈ (batched wf).lhsBatch from (by decide : ¬(1 : Fin 3) ∈ ([0] : List (Fin 3)))), dif_pos (show (1 : Fin 3) ∈ (batched wf).lhsNonContracting from (by decide : (1 : Fin 3) ∈ ([1] : List (Fin 3))))]
  rfl

theorem batched_lhs2 (i : (⟨3, ![B, M, N]⟩ : Shape).Idx) (q : (batched wf).contr.Idx) : ((batched wf).lhsIdx i q 2).val = (q ⟨0, Nat.one_pos⟩).val :=
  (batched wf).lhsIdx_val_of_single rfl i q

theorem batched_rhs0 (i : (⟨3, ![B, M, N]⟩ : Shape).Idx) (q : (batched wf).contr.Idx) : ((batched wf).rhsIdx i q 0).val = (i 0).val := by
  unfold DotDims.rhsIdx
  rw [dif_pos (show (0 : Fin 3) ∈ (batched wf).rhsBatch from (by decide : (0 : Fin 3) ∈ ([0] : List (Fin 3))))]
  rfl

theorem batched_rhs1 (i : (⟨3, ![B, M, N]⟩ : Shape).Idx) (q : (batched wf).contr.Idx) : ((batched wf).rhsIdx i q 1).val = (i 2).val := by
  unfold DotDims.rhsIdx
  rw [dif_neg (show ¬(1 : Fin 3) ∈ (batched wf).rhsBatch from (by decide : ¬(1 : Fin 3) ∈ ([0] : List (Fin 3)))), dif_pos (show (1 : Fin 3) ∈ (batched wf).rhsNonContracting from (by decide : (1 : Fin 3) ∈ ([1] : List (Fin 3))))]
  rfl

theorem batched_rhs2 (i : (⟨3, ![B, M, N]⟩ : Shape).Idx) (q : (batched wf).contr.Idx) : ((batched wf).rhsIdx i q 2).val = (q ⟨0, Nat.one_pos⟩).val :=
  (batched wf).rhsIdx_val_of_single rfl i q

/-- The host's batched `dot_general`: chunk g's rows against chunk g's table's rows, at (g, p, f). -/
theorem dot_batched {φ₁ φ₂ : FTy} (D : DotDims ⟨3, ![B, M, K]⟩ ⟨3, ![B, N, K]⟩ ⟨3, ![B, M, N]⟩) (hD : D = batched wf)
    (prec : Option ContractPrecision) (a : FVec Ideal ⟨3, ![B, M, K]⟩ φ₁) (w : FVec Ideal ⟨3, ![B, N, K]⟩ φ₂) (g : Fin B) (p : Fin M) (f : Fin N) :
    Host.dotGeneral D prec a w (ix3 g p f) = ∑ d : Fin K, a (ix3 g p d) * w (ix3 g f d) := by
  subst hD
  refine (Ideal.dotGeneral_apply _ prec .single a w (ix3 g p f)).trans ?_
  rw [← Equiv.sum_comp (contrEquiv1 (batched wf) K rfl rfl).symm]
  refine Finset.sum_congr rfl fun k _ => ?_
  have hk := contrEquiv1_symm_val (batched wf) K rfl rfl k
  have el : (batched wf).lhsIdx (ix3 g p f) ((contrEquiv1 (batched wf) K rfl rfl).symm k) = ix3 g p k := funext fun x => Fin.ext (by
    match x with
    | ⟨0, _⟩ => exact batched_lhs0 wf _ _
    | ⟨1, _⟩ => exact batched_lhs1 wf _ _
    | ⟨2, _⟩ => exact (batched_lhs2 wf _ _).trans hk)
  have er : (batched wf).rhsIdx (ix3 g p f) ((contrEquiv1 (batched wf) K rfl rfl).symm k) = ix3 g f k := funext fun x => Fin.ext (by
    match x with
    | ⟨0, _⟩ => exact batched_rhs0 wf _ _
    | ⟨1, _⟩ => exact batched_rhs1 wf _ _
    | ⟨2, _⟩ => exact (batched_rhs2 wf _ _).trans hk)
  rw [el, er]

end Batched

end Cert.LibRowDots

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«159255_j49503793054189_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibRowReduce.lean ====
/-
  Reductions along the rows of an [a, b] array, read at a row, on the extended reals.

  A lane sum from the zero word is the sum of the row's entries; a lane maximum from the -∞ word is their supremum;
  and a vector [a] kept as a column [a, 1] and spread over b columns reads, at (p, q), the vector at p.  The source
  index over row p with column k inserted is (p, k).
-/
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import proofs.«159255_j49503793054189_2_alg».proof.Proof.LibKeepdims
import proofs.«159255_j49503793054189_2_alg».proof.Proof.LibExtremeReduce

noncomputable section

namespace Cert.LibRowReduce

open Idealize.ShloMosaic Idealize.ShloMosaic.ValueIdx

variable {a b : Nat}

/-- Over row p of an [a, b] array, the index with column k inserted is (p, k). -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A lane sum along the rows, from the zero word, at row p: the sum of the row. -/
theorem rowSum_apply (src : FVec Ideal ⟨2, ![a, b]⟩ .f32) (h : (⟨2, ![a, b]⟩ : Shape).Reduces [1] ⟨1, ![a]⟩) (p : Fin a) :
    multiReduction .add [1] ⟨1, ![a]⟩ src 0x00000000#32 h (.inl rfl) rfl (ix1 p) = ∑ q : Fin b, src (ix2 p q) :=
  (Ideal.multiReduction_add_single src 0x00000000#32 h (.inl rfl) rfl (ix1 p)).trans
    (Finset.sum_congr rfl fun k _ => congrArg src (lift_row h p k))

/-- A lane maximum along the rows, from the -∞ word, at row p: the supremum of the row. -/
theorem rowMax_apply (src : FVec Ideal ⟨2, ![a, b]⟩ .f32) (h : (⟨2, ![a, b]⟩ : Shape).Reduces [1] ⟨1, ![a]⟩) (p : Fin a) :
    multiReduction .maximumf [1] ⟨1, ![a]⟩ src 0xFF800000#32 h (.inl rfl) rfl (ix1 p) = ⨆ q : Fin b, src (ix2 p q) :=
  (ExtremeReduce.multiReduction_max_single src h (.inl rfl) rfl (ix1 p)).trans
    (iSup_congr fun k => congrArg src (lift_row h p k))

/-- A vector [a] kept as a column [a, 1] and spread over b columns reads, at (p, q), the vector at p. -/
theorem column_apply {α : Type} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) :=
  (LibKeepdims.broadcastTo_a1_ab_apply _ h2 p q).trans (LibKeepdims.shapeCast_a_a1_apply v h1 p 0)

end Cert.LibRowReduce

end
-- ==== Proof.TileRows.lean ====
/-
  One tile of the kernel: 256 consecutive rows of the anchor matrix against all 4096 rows.

  At grid point i the body loads rows 256 i .. 256 i + 255 of the anchor matrix and the whole matrix, the labels of
  those rows and all labels, and stores one number per row.  Read at row p of the tile that number is the loss of row
  256 i + p of the specification: the contraction over the 32 features times the named reciprocal temperature is the
  logit; the lane maximum is the row's supremum; the select on "same label" drops the positives from the negatives'
  sum; the select on "same label and another row" keeps the positives' log-probabilities; the positives are counted
  by the same mask, and the floor of one under the count is idle because every row has a positive.
-/
import proofs.«159255_j49503793054189_2_alg».proof.Proof.Spec
import proofs.«159255_j49503793054189_2_alg».proof.Proof.Gen.KernelIdeal.Skeleton
import proofs.«159255_j49503793054189_2_alg».proof.Proof.LibRowDots
import proofs.«159255_j49503793054189_2_alg».proof.Proof.LibRowReduce
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.SupCon.Tile

open Cert.KernelIdeal Cert.KernelIdeal.Gen Idealize.ShloMosaic Idealize.ShloMosaic.ValueIdx Cert.SupCon

/-- Row p of tile i is row 256 i + p of the anchor matrix. -/
def tileRow (i : grid0.Coords) (p : Fin 256) : Fin 4096 :=
  ⟨(i 0).val * 256 + p.val, by have h : (i 0).val < 16 := (i 0).isLt; have := p.isLt; omega⟩

/-! ## Words -/

/-- The named constant is the reciprocal temperature. -/
theorem named_invTemp : Named.named (F := Ideal) κ "inv_temp" (φ := .f32) 0x41649249#32 = invTemp :=
  IdealRules.named_const.ideal_named_scalar _ _ _ _ rfl

/-- The word of row 256 t + p, as the body computes it. -/
theorem rowWord (t p : Nat) :
    IntOp.addi (Scalar.muli (BitVec.ofNat 32 t) 256#32) (BitVec.ofNat 32 p) = BitVec.ofNat 32 (t * 256 + p) := by
  show BitVec.ofNat 32 t * BitVec.ofNat 32 256 + BitVec.ofNat 32 p = _
  rw [BitVec.ofNat_add, BitVec.ofNat_mul]

/-- Two row numbers below 4096 have equal words exactly when they are equal. -/
theorem eqWord (n q : Nat) (hn : n < 4096) (hq : q < 4096) :
    (BitVec.ofNat 32 n == BitVec.ofNat 32 q) = decide (n = q) := by
  by_cases h : n = q
  · subst h; simp
  · have hne : BitVec.ofNat 32 n ≠ BitVec.ofNat 32 q := by
      intro e
      apply h
      have e' := congrArg BitVec.toNat e
      simp only [BitVec.toNat_ofNat] at e'
      omega
    simp [h, hne]

/-- The mask bit "same label and another row". -/
theorem posBit (same : BitVec 1) (n q : Nat) (hn : n < 4096) (hq : q < 4096) :
    IntOp.andi same (IntOp.xori (IntOp.cmpi .eq (BitVec.ofNat 32 n) (BitVec.ofNat 32 q)) 1#1) = 1#1
      ↔ (same = 1#1 ∧ n ≠ q) := by
  unfold IntOp.andi IntOp.xori IntOp.cmpi
  simp only [eqWord n q hn hq]
  rcases BitVec.eq_zero_or_eq_one same with hs | hs <;> subst hs <;> by_cases h : n = q <;> simp [h]

/-- The count of a mask bit: one where set, zero where not. -/
theorem countBit (c : BitVec 1) :
    FloatOps.sitofp (F := Ideal) .f32 (c.setWidth 32) = if c = 1#1 then (1 : EReal) else 0 := by
  rcases BitVec.eq_zero_or_eq_one c with hc | hc <;> subst hc
  · show (((BitVec.setWidth 32 0#1).toInt : ℝ) : EReal) = _
    simp
  · show (((BitVec.setWidth 32 1#1).toInt : ℝ) : EReal) = _
    simp

/-! ## The stages of the body, each read at an index -/

/-- The tile's scaled similarities. -/
def tileLogits (v3 : FVec Ideal S256x32 .f32) (v5 : FVec Ideal S4096x32 .f32) : FVec Ideal S256x4096 .f32 :=
  mulf (matmul dot_S256x32_S4096x32_S256x4096_1_1_0_0_n_n (some .fp32) (shapeCast S256x32 v3 shapeCasts_S256x32_S256x32)
      (shapeCast S4096x32 v5 shapeCasts_S4096x32_S4096x32) (constant S256x4096 .f32 0x00000000#32))
    (broadcast S256x4096 (Named.named κ "inv_temp" 0x41649249#32))

theorem tileLogits_apply (A : Anchor) (i : grid0.Coords) (v3 : FVec Ideal S256x32 .f32) (v5 : FVec Ideal S4096x32 .f32)
    (h3 : ∀ (p : Fin 256) (d : Fin 32), v3 (ix2 p d) = A (ix2 (tileRow i p) d))
    (h5 : ∀ (q : Fin 4096) (d : Fin 32), v5 (ix2 q d) = A (ix2 q d)) (p : Fin 256) (q : Fin 4096) :
    tileLogits v3 v5 (ix2 p q) = logit A (tileRow i p) q := by
  unfold tileLogits logit
  rw [shapeCast_self, shapeCast_self]
  show matmul dot_S256x32_S4096x32_S256x4096_1_1_0_0_n_n (some .fp32) v3 v5 (constant (F := Ideal) S256x4096 .f32 0x00000000#32) (ix2 p q)
      * Named.named (F := Ideal) κ "inv_temp" (φ := .f32) 0x41649249#32 = _
  rw [named_invTemp, LibRowDots.matmul_rows dot_S256x32_S4096x32_S256x4096_1_1_0_0_n_n_wf
    dot_S256x32_S4096x32_S256x4096_1_1_0_0_n_n rfl (some .fp32) v3 v5 p q]
  refine congrArg (· * invTemp) (Finset.sum_congr rfl fun d _ => ?_)
  rw [h3, h5]

/-- Logits less their row maximum. -/
def shiftRows (L : FVec Ideal S256x4096 .f32) : FVec Ideal S256x4096 .f32 :=
  subf L (broadcastTo S256x4096 (shapeCast S256x1
    (multiReduction .maximumf [1] S256 L 0xFF800000#32 reduces_S256x4096_S256 (.inl rfl) rfl)
    shapeCasts_S256_S256x1) broadcasts_S256x1_S256x4096)

theorem shiftRows_apply (L : FVec Ideal S256x4096 .f32) (p : Fin 256) (q : Fin 4096) :
    shiftRows L (ix2 p q) = L (ix2 p q) - ⨆ q' : Fin 4096, L (ix2 p q') := by
  unfold shiftRows
  exact congrArg (L (ix2 p q) - ·)
    ((LibRowReduce.column_apply _ shapeCasts_S256_S256x1 broadcasts_S256x1_S256x4096 p q).trans
      (LibRowReduce.rowMax_apply L reduces_S256x4096_S256 p))

/-- The negatives' sum of each row: entries of rows with the same label replaced by zero. -/
def negRows (same : IVec S256x4096 1) (E : FVec Ideal S256x4096 .f32) : FVec Ideal S256 .f32 :=
  multiReduction .add [1] S256 (select same (broadcast S256x4096 (Scalar.ofBits .f32 0x00000000#32)) E) 0x00000000#32
    reduces_S256x4096_S256 (.inl rfl) rfl

theorem negRows_apply (same : IVec S256x4096 1) (E : FVec Ideal S256x4096 .f32) (p : Fin 256) :
    negRows same E (ix1 p) = ∑ q : Fin 4096, Scalar.select (same (ix2 p q)) (0 : EReal) (E (ix2 p q)) := by
  unfold negRows
  refine (LibRowReduce.rowSum_apply _ reduces_S256x4096_S256 p).trans (Finset.sum_congr rfl fun q _ => ?_)
  show Scalar.select (same (ix2 p q)) (Ideal.ofBits .f32 0x00000000#32) (E (ix2 p q)) = _
  rw [Ideal.ofBits_zero_f32]

/-- The log-probabilities. -/
def logProbRows (S E : FVec Ideal S256x4096 .f32) (neg : FVec Ideal S256 .f32) : FVec Ideal S256x4096 .f32 :=
  subf S (log (addf E (broadcastTo S256x4096 (shapeCast S256x1 neg shapeCasts_S256_S256x1) broadcasts_S256x1_S256x4096)))

theorem logProbRows_apply (S E : FVec Ideal S256x4096 .f32) (neg : FVec Ideal S256 .f32) (p : Fin 256) (q : Fin 4096) :
    logProbRows S E neg (ix2 p q) = S (ix2 p q) - Ideal.log (E (ix2 p q) + neg (ix1 p)) := by
  unfold logProbRows
  exact congrArg (fun z => S (ix2 p q) - Ideal.log (E (ix2 p q) + z))
    (LibRowReduce.column_apply neg shapeCasts_S256_S256x1 broadcasts_S256x1_S256x4096 p q)

/-- The positives' sum of each row. -/
def posSumRows (pos : IVec S256x4096 1) (LP : FVec Ideal S256x4096 .f32) : FVec Ideal S256 .f32 :=
  multiReduction .add [1] S256 (select pos LP (broadcast S256x4096 (Scalar.ofBits .f32 0x00000000#32))) 0x00000000#32
    reduces_S256x4096_S256 (.inl rfl) rfl

theorem posSumRows_apply (pos : IVec S256x4096 1) (LP : FVec Ideal S256x4096 .f32) (p : Fin 256) :
    posSumRows pos LP (ix1 p) = ∑ q : Fin 4096, Scalar.select (pos (ix2 p q)) (LP (ix2 p q)) (0 : EReal) := by
  unfold posSumRows
  refine (LibRowReduce.rowSum_apply _ reduces_S256x4096_S256 p).trans (Finset.sum_congr rfl fun q _ => ?_)
  show Scalar.select (pos (ix2 p q)) (LP (ix2 p q)) (Ideal.ofBits .f32 0x00000000#32) = _
  rw [Ideal.ofBits_zero_f32]

/-- The body's sum payload is these stages composed. -/
theorem pay4_eq (i : grid0.Coords) (v3 : FVec Ideal S256x32 .f32) (v5 : FVec Ideal S4096x32 .f32)
    (v16 : FVec Ideal S1x256 .f32) (v19 : FVec Ideal S1x4096 .f32) :
    k0_pay4 (F := Ideal) i v3 v5 v16 v19
      = posSumRows (k0_pay3 (F := Ideal) i v16 v19)
          (logProbRows (shiftRows (tileLogits v3 v5)) (exp (shiftRows (tileLogits v3 v5)))
            (negRows (k0_pay2 (F := Ideal) v16 v19) (exp (shiftRows (tileLogits v3 v5))))) := rfl

/-! ## The masks -/

/-- "Same label": the label of the tile's row p against the label of row q. -/
theorem pay2_apply (v16 : FVec Ideal S1x256 .f32) (v19 : FVec Ideal S1x4096 .f32) (p : Fin 256) (q : Fin 4096) :
    k0_pay2 (F := Ideal) v16 v19 (ix2 p q) = Ideal.cmp .oeq (v16 (ix2 (0 : Fin 1) p)) (v19 (ix2 (0 : Fin 1) q)) := by
  unfold k0_pay2
  rw [shapeCast_self, shapeCast_self]
  show Ideal.cmp .oeq (broadcastTo S256x4096 (transpose S256x1 [1, 0] v16 transposes_S1x256_p1_0_S256x1) broadcasts_S256x1_S256x4096 (ix2 p q))
      (broadcastTo S256x4096 v19 broadcasts_S1x4096_S256x4096 (ix2 p q)) = _
  rw [LibKeepdims.broadcastTo_a1_ab_apply _ broadcasts_S256x1_S256x4096 p q,
    transpose_ix2_apply v16 transposes_S1x256_p1_0_S256x1 p (0 : Fin 1),
    broadcastTo_1b_ab_apply v19 broadcasts_S1x4096_S256x4096 p q]

/-- "Same label and another row". -/
theorem pay3_apply (i : grid0.Coords) (v16 : FVec Ideal S1x256 .f32) (v19 : FVec Ideal S1x4096 .f32) (p : Fin 256) (q : Fin 4096) :
    k0_pay3 (F := Ideal) i v16 v19 (ix2 p q)
      = IntOp.andi (k0_pay2 (F := Ideal) v16 v19 (ix2 p q))
          (IntOp.xori (IntOp.cmpi .eq (BitVec.ofNat 32 (tileRow i p).val) (BitVec.ofNat 32 q.val)) 1#1) := by
  unfold k0_pay3
  show IntOp.andi (k0_pay2 (F := Ideal) v16 v19 (ix2 p q))
      (IntOp.xori (IntOp.cmpi .eq
        (broadcastTo S256x4096 (addi (broadcast S256x1 (Scalar.muli (BitVec.ofNat 32 (i 0).val) 256#32)) (iota .tc S256x1 32 [0] iota_S256x1_d0_w32)) broadcasts_S256x1_S256x4096 (ix2 p q))
        (broadcastTo S256x4096 (iota .tc S1x4096 32 [1] iota_S1x4096_d1_w32) broadcasts_S1x4096_S256x4096 (ix2 p q))) 1#1) = _
  rw [LibKeepdims.broadcastTo_a1_ab_apply _ broadcasts_S256x1_S256x4096 p q,
    broadcastTo_1b_ab_apply _ broadcasts_S1x4096_S256x4096 p q]
  show IntOp.andi _ (IntOp.xori (IntOp.cmpi .eq
      (IntOp.addi (Scalar.muli (BitVec.ofNat 32 (i 0).val) 256#32) (iota .tc S256x1 32 [0] iota_S256x1_d0_w32 (ix2 p (0 : Fin 1))))
      (iota .tc S1x4096 32 [1] iota_S1x4096_d1_w32 (ix2 (0 : Fin 1) q))) 1#1) = _
  rw [iota_single_apply, iota_single_apply]
  show IntOp.andi _ (IntOp.xori (IntOp.cmpi .eq
      (IntOp.addi (Scalar.muli (BitVec.ofNat 32 (i 0).val) 256#32) (BitVec.ofNat 32 p.val)) (BitVec.ofNat 32 q.val)) 1#1) = _
  rw [rowWord]
  rfl

/-! ## The last payload: from the positives' sum to the row's loss -/

theorem pay1_apply (pos : IVec S256x4096 1) (sw : FVec Ideal S256 .f32) (p : Fin 256) :
    k0_pay1 (F := Ideal) pos sw (ix3 (0 : Fin 1) (0 : Fin 1) p)
      = Ideal.ofBits .f32 0xBF800000#32 * Ideal.div (sw (ix1 p))
          (max (∑ q : Fin 4096, FloatOps.sitofp (F := Ideal) .f32 ((pos (ix2 p q)).setWidth 32)) (Ideal.ofBits .f32 0x3F800000#32)) := by
  unfold k0_pay1
  refine (shapeCast_ab_1ab_apply _ shapeCasts_S1x256_S1x1x256 (0 : Fin 1) (0 : Fin 1) p).trans ?_
  refine (transpose_ix2_apply _ transposes_S256x1_p1_0_S1x256 (0 : Fin 1) p).trans ?_
  show Ideal.ofBits .f32 0xBF800000#32 * Ideal.div (shapeCast S256x1 sw shapeCasts_S256_S256x1 (ix2 p (0 : Fin 1)))
      (max (shapeCast S256x1 (multiReduction (F := Ideal) .add [1] S256 (sitofp (F := Ideal) .f32 (extui 32 pos natLt_1_32)) 0x00000000#32 reduces_S256x4096_S256 (.inl rfl) rfl) shapeCasts_S256_S256x1 (ix2 p (0 : Fin 1)))
        (Ideal.ofBits .f32 0x3F800000#32)) = _
  rw [LibKeepdims.shapeCast_a_a1_apply sw shapeCasts_S256_S256x1 p 0,
    LibKeepdims.shapeCast_a_a1_apply _ shapeCasts_S256_S256x1 p 0,
    LibRowReduce.rowSum_apply _ reduces_S256x4096_S256 p]
  rfl

end Cert.SupCon.Tile

end
-- ==== Proof.TileLoss.lean ====
/-
  What one tile stores is the specification's row losses.

  With the tile's anchor rows and labels identified with the matrix A and the labels y, each stage of the body read
  at row p of tile i and column q is the specification's quantity at rows r = 256 i + p and q: the mask "same
  label" is set exactly when label r = label q, the mask "same label and another row" exactly when q is a positive
  of r; a select on a mask is the specification's case split; the count of positives is at least one, so its floor
  of one is idle.
-/
import proofs.«159255_j49503793054189_2_alg».proof.Proof.TileRows

noncomputable section

namespace Cert.SupCon.Tile

open Cert.KernelIdeal Cert.KernelIdeal.Gen Idealize.ShloMosaic Idealize.ShloMosaic.ValueIdx Cert.SupCon

section
variable (A : Anchor) (y : Classes) (i : grid0.Coords)
  (v3 : FVec Ideal S256x32 .f32) (v5 : FVec Ideal S4096x32 .f32) (v16 : FVec Ideal S1x256 .f32) (v19 : FVec Ideal S1x4096 .f32)
  (h3 : ∀ (p : Fin 256) (d : Fin 32), v3 (ix2 p d) = A (ix2 (tileRow i p) d))
  (h5 : ∀ (q : Fin 4096) (d : Fin 32), v5 (ix2 q d) = A (ix2 q d))
  (h16 : ∀ p : Fin 256, v16 (ix2 (0 : Fin 1) p) = label y (tileRow i p))
  (h19 : ∀ q : Fin 4096, v19 (ix2 (0 : Fin 1) q) = label y q)

include h16 h19 in
/-- The mask "same label" is set exactly when the labels agree. -/
theorem same_iff (p : Fin 256) (q : Fin 4096) :
    k0_pay2 (F := Ideal) v16 v19 (ix2 p q) = 1#1 ↔ label y (tileRow i p) = label y q := by
  rw [pay2_apply, h16, h19]
  unfold Ideal.cmp
  by_cases h : label y (tileRow i p) = label y q <;> simp [h]

include h16 h19 in
/-- The mask "same label and another row" is set exactly at the positives. -/
theorem pos_iff (p : Fin 256) (q : Fin 4096) :
    k0_pay3 (F := Ideal) i v16 v19 (ix2 p q) = 1#1 ↔ positive y (tileRow i p) q := by
  rw [pay3_apply, posBit _ _ _ (tileRow i p).isLt q.isLt, same_iff y i v16 v19 h16 h19 p q]
  unfold positive
  exact and_congr_right fun _ => not_congr Fin.val_inj

include h3 h5 in
theorem shift_eq (p : Fin 256) (q : Fin 4096) :
    shiftRows (tileLogits v3 v5) (ix2 p q) = shifted A (tileRow i p) q := by
  rw [shiftRows_apply]
  unfold shifted rowMax
  simp only [tileLogits_apply A i v3 v5 h3 h5 p]

include h3 h5 in
theorem exp_eq (p : Fin 256) (q : Fin 4096) :
    exp (shiftRows (tileLogits v3 v5)) (ix2 p q) = Ideal.exp (shifted A (tileRow i p) q) := by
  show Ideal.exp (shiftRows (tileLogits v3 v5) (ix2 p q)) = _
  rw [shift_eq A i v3 v5 h3 h5]

include h3 h5 h16 h19 in
theorem neg_eq (p : Fin 256) :
    negRows (k0_pay2 (F := Ideal) v16 v19) (exp (shiftRows (tileLogits v3 v5))) (ix1 p) = negSum A y (tileRow i p) := by
  rw [negRows_apply]
  unfold negSum
  refine Finset.sum_congr rfl fun q _ => ?_
  rw [exp_eq A i v3 v5 h3 h5]
  by_cases h : label y (tileRow i p) = label y q
  · rw [if_pos h, (same_iff y i v16 v19 h16 h19 p q).mpr h]; exact select_one _ _
  · rw [if_neg h, eq_zero_of_ne_one (mt (same_iff y i v16 v19 h16 h19 p q).mp h)]; exact select_zero _ _

include h3 h5 h16 h19 in
theorem logProb_eq (p : Fin 256) (q : Fin 4096) :
    logProbRows (shiftRows (tileLogits v3 v5)) (exp (shiftRows (tileLogits v3 v5)))
        (negRows (k0_pay2 (F := Ideal) v16 v19) (exp (shiftRows (tileLogits v3 v5)))) (ix2 p q)
      = logProb A y (tileRow i p) q := by
  rw [logProbRows_apply, shift_eq A i v3 v5 h3 h5, exp_eq A i v3 v5 h3 h5, neg_eq A y i v3 v5 v16 v19 h3 h5 h16 h19]
  rfl

include h3 h5 h16 h19 in
/-- Row p of what tile i stores is the loss of row 256 i + p. -/
theorem tile_rowLoss (p : Fin 256) :
    k0_pay1 (F := Ideal) (k0_pay3 (F := Ideal) i v16 v19) (k0_pay4 (F := Ideal) i v3 v5 v16 v19) (ix3 (0 : Fin 1) (0 : Fin 1) p)
      = rowLoss A y (tileRow i p) := by
  rw [pay1_apply, pay4_eq, posSumRows_apply]
  unfold rowLoss
  have hsum : (∑ q : Fin 4096, Scalar.select (k0_pay3 (F := Ideal) i v16 v19 (ix2 p q))
      (logProbRows (shiftRows (tileLogits v3 v5)) (exp (shiftRows (tileLogits v3 v5)))
        (negRows (k0_pay2 (F := Ideal) v16 v19) (exp (shiftRows (tileLogits v3 v5)))) (ix2 p q)) (0 : EReal))
      = posSum A y (tileRow i p) := by
    unfold posSum
    refine Finset.sum_congr rfl fun q _ => ?_
    rw [logProb_eq A y i v3 v5 v16 v19 h3 h5 h16 h19]
    by_cases h : positive y (tileRow i p) q
    · rw [if_pos h, (pos_iff y i v16 v19 h16 h19 p q).mpr h]; exact select_one _ _
    · rw [if_neg h, eq_zero_of_ne_one (mt (pos_iff y i v16 v19 h16 h19 p q).mp h)]; exact select_zero _ _
  have hcnt : (∑ q : Fin 4096, FloatOps.sitofp (F := Ideal) .f32 ((k0_pay3 (F := Ideal) i v16 v19 (ix2 p q)).setWidth 32))
      = posCount y (tileRow i p) := by
    unfold posCount
    refine Finset.sum_congr rfl fun q _ => ?_
    rw [countBit]
    by_cases h : positive y (tileRow i p) q
    · rw [if_pos h, if_pos ((pos_iff y i v16 v19 h16 h19 p q).mpr h)]
    · rw [if_neg h, if_neg (mt (pos_iff y i v16 v19 h16 h19 p q).mp h)]
  rw [hsum, hcnt, ofBits_one, max_posCount_one]

end

end Cert.SupCon.Tile

end
-- ==== Proof.KernelArray.lean ====
/-
  The array of row losses the kernel's region leaves.

  Grid point t runs the body on rows 256 t .. 256 t + 255: the first anchor load is the block of the whole-matrix
  window at row offset 256 t, the first label load the block of the label row at lane offset 256 t, and the two
  whole loads are the windows' blocks, which are the arrays themselves (one block, index 0).  The body's one store
  covers its [1, 1, 256] output block, block t of the [16, 1, 256] result; the sixteen blocks tile it.  So the result
  ends holding, at (t, 0, p), the loss of row 256 t + p.
-/
import proofs.«159255_j49503793054189_2_alg».proof.Proof.TileLoss
import proofs.«159255_j49503793054189_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.SupCon.Blocks

open Cert.KernelIdeal Cert.KernelIdeal.Gen Idealize.ShloMosaic.ValueIdx Cert.SupCon Cert.SupCon.Tile

theorem hz3 : (![0, 0, 0] : Fin 3 → Nat) = fun _ => 0 := funext fun a => by fin_cases a <;> rfl
theorem hz2 : (![0, 0] : Fin 2 → Nat) = fun _ => 0 := funext fun a => by fin_cases a <;> rfl

section Piece
variable {F : FTy → Type} [FloatOps F] [Named F]

/-- What the body leaves in its output block: the last payload of the two partial ones, of the tile's anchor rows
    and labels (loads at the tile's offset) and of the whole anchor matrix and label row. -/
theorem stored (c : Dev nD) (i : grid0.Coords) (arg1 : Memref sig .tc .vmem S4096x32 .f32) (harg1 : arg1.IsWhole)
    (arg2 : Memref sig .tc .vmem S1x4096 .f32) (harg2 : arg2.IsWhole) (arg3 : Memref sig .tc .vmem S1x1x256 .f32) (harg3 : arg3.IsWhole)
    (x0 : Vec F S4096x32 .f32) (x1 : Vec F S1x4096 .f32) :
    out0_A_2 c i arg1 harg1 arg2 harg2 arg3 harg3 x0 x1
      = k0_pay1 (k0_pay3 i (View.ld x1 (Rect.unit (k0_off2 i) S1x256.size (k0_off2_inb i))) x1)
          (k0_pay4 i (View.ld x0 (Rect.unit (k0_off1 i) S256x32.size (k0_off1_inb i))) x0
            (View.ld x1 (Rect.unit (k0_off2 i) S1x256.size (k0_off2_inb i))) x1) := by
  unfold out0_A_2
  rw [View.read_writes_eq_canon _ _ _ (cover0_A_2 c i arg1 harg1 arg2 harg2 arg3 harg3 x0 x1)]
  unfold kernelRun0_A
  dsimp only
  sl_unfold_run_names
  rw [View.canon_unit_zero hz3]
  simp only [View.readAt_eq_ld, harg1.read_unread, harg2.read_unread, View.ld_unit_zero (S := S4096x32) hz2,
    View.ld_unit_zero (S := S1x4096) hz2]

end Piece

/-- The row of the anchor matrix that entry (t, 0, p) of the result belongs to. -/
def rowOf (j : S16x1x256.Idx) : Fin 4096 :=
  ⟨(j 0).val * 256 + (j 2).val, by
    have h0 : (j 0).val < 16 := (j 0).isLt
    have h2 : (j 2).val < 256 := (j 2).isLt
    omega⟩

/-- The row losses laid out as the kernel's [16, 1, 256] result. -/
def lossBlocks (A : Anchor) (y : Classes) : S16x1x256.Idx → EReal := fun j => rowLoss A y (rowOf j)

/-- The stored block, over variables: with x0 the anchor matrix and x1 the label row, entry j of the block of tile i
    is the loss of row 256 i + j. -/
theorem stored_apply (A : Anchor) (y : Classes) (i : grid0.Coords) (x0 : Vec Ideal S4096x32 .f32) (x1 : Vec Ideal S1x4096 .f32)
    (h0 : ∀ (q : Fin 4096) (d : Fin 32), x0 (ix2 q d) = A (ix2 q d))
    (h1 : ∀ q : Fin 4096, x1 (ix2 (0 : Fin 1) q) = label y q) (p : Fin 256) :
    k0_pay1 (F := Ideal) (k0_pay3 (F := Ideal) i (View.ld x1 (Rect.unit (k0_off2 i) S1x256.size (k0_off2_inb i))) x1)
        (k0_pay4 (F := Ideal) i (View.ld x0 (Rect.unit (k0_off1 i) S256x32.size (k0_off1_inb i))) x0
          (View.ld x1 (Rect.unit (k0_off2 i) S1x256.size (k0_off2_inb i))) x1) (ix3 (0 : Fin 1) (0 : Fin 1) p)
      = rowLoss A y (tileRow i p) := by
  refine tile_rowLoss A y i _ x0 _ x1 (fun p d => ?_) h0 (fun p => ?_) h1 p
  · show x0 ((Rect.unit (s := S4096x32) (k0_off1 i) S256x32.size (k0_off1_inb i)).idx (ix2 p d)) = _
    rw [← h0]
    refine congrArg x0 (funext fun a => Fin.ext ?_)
    match a with
    | ⟨0, _⟩ =>
      show k0_off1 i 0 + 1 * p.val = (i 0).val * 256 + p.val
      rw [k0_off1_eq]; show 256 * (i 0).val + 1 * p.val = _; omega
    | ⟨1, _⟩ =>
      show k0_off1 i 1 + 1 * d.val = d.val
      rw [k0_off1_eq]; show 0 + 1 * d.val = _; omega
  · show x1 ((Rect.unit (s := S1x4096) (k0_off2 i) S1x256.size (k0_off2_inb i)).idx (ix2 (0 : Fin 1) p)) = _
    rw [← h1]
    refine congrArg x1 (funext fun a => Fin.ext ?_)
    match a with
    | ⟨0, _⟩ =>
      show k0_off2 i 0 + 1 * 0 = 0
      rw [k0_off2_eq]; rfl
    | ⟨1, _⟩ =>
      show k0_off2 i 1 + 1 * p.val = (i 0).val * 256 + p.val
      rw [k0_off2_eq]; show 256 * (i 0).val + 1 * p.val = _; omega

section Array
variable (m : (ℓ : Loc nD τ sig) → Buf (Elt Ideal) ℓ) (ρ : Dev nD → PrngReg)

/-- The printed index maps over the grid: the two input windows stay at block 0, the output moves with the point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ (grid0.coords t 0).val = t.val :=
  (by decide +kernel : ∀ t : Fin grid0.N, _)

/-- What point t writes back is block t of the row losses, for the anchor matrix and the labels the region finds. -/
theorem flushed_eq (c : Dev nD) (y : Classes)
    (hy : ∀ q : Fin 4096, (V m c main_v14 : S1x4096.Idx → EReal) (ix2 (0 : Fin 1) q) = label y q) (t : Fin cfg0.N) :
    (dats m 0 c).flushed 2 t
      = ((cfg0.win 2).blk t).view.read (Elt Ideal) (lossBlocks (V m c main_v10 : S4096x32.Idx → EReal) y) := by
  show (cfg0.win 2).cut (grid0.coords t) ((dats m 0 c).after 2 t) = _
  rw [after0_2]
  unfold outsAt0
  rw [stored]
  obtain ⟨e00, e01, e10, e11, e20, e21, e22, eg⟩ := idx_facts t
  funext j
  have hj : j = ix3 (0 : Fin 1) (0 : Fin 1) (j 2) := by
    funext a
    match a with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
    | ⟨2, _⟩ => rfl
  rw [hj]
  refine (stored_apply (V m c main_v10 : S4096x32.Idx → EReal) y (grid0.coords t) (iblk m c 0 t) (iblk m c 1 t)
    (fun q d => ?_) (fun q => ?_) (j 2)).trans ?_
  · show V m c main_v10 (((cfg0.win 0).blk t).view.emb (ix2 q d)) = V m c main_v10 (ix2 q d)
    refine congrArg _ (funext fun a => Fin.ext ?_)
    match a with
    | ⟨0, _⟩ => show win0_0.index t (0 : Fin 2) * 4096 + 1 * q.val = q.val; omega
    | ⟨1, _⟩ => show win0_0.index t (1 : Fin 2) * 32 + 1 * d.val = d.val; omega
  · rw [← hy]
    show V m c main_v14 (((cfg0.win 1).blk t).view.emb (ix2 (0 : Fin 1) q)) = V m c main_v14 (ix2 (0 : Fin 1) q)
    refine congrArg _ (funext fun a => Fin.ext ?_)
    match a with
    | ⟨0, _⟩ => show win0_1.index t (0 : Fin 2) * 1 + 1 * 0 = 0; omega
    | ⟨1, _⟩ => show win0_1.index t (1 : Fin 2) * 4096 + 1 * q.val = q.val; omega
  · show rowLoss _ y (tileRow (grid0.coords t) (j 2)) = rowLoss _ y (rowOf (((cfg0.win 2).blk t).view.emb (ix3 (0 : Fin 1) (0 : Fin 1) (j 2))))
    refine congrArg _ (Fin.ext ?_)
    show (grid0.coords t 0).val * 256 + (j 2).val = (win0_2.index t (0 : Fin 3) * 1 + 1 * 0) * 256 + (win0_2.index t (2 : Fin 3) * 256 + 1 * (j 2).val)
    omega

/-- An index of the result is in point t's block iff each coordinate is in the block's range. -/
theorem mem_blk (t : Fin cfg0.N) (i : S16x1x256.Idx) :
    i ∈ ((cfg0.win 2).blk t).view.set ↔ ∀ a : Fin 3, win0_2.index t a * S1x1x256.size a ≤ (i a).val
      ∧ (i a).val < win0_2.index t a * S1x1x256.size a + S1x1x256.size a := by
  show i ∈ ((View.whole main_v15).slice (win0_2.rect t)).set ↔ _
  rw [View.set_slice_whole, Rect.mem_set_unit]
  exact Iff.rfl

/-- The sixteen blocks tile the result: entry (t, 0, p) is in point t's block. -/
theorem cover (i : S16x1x256.Idx) :
    ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 256 := (i 2).isLt
  have hN : cfg0.N = 16 := N_0
  refine ⟨⟨(i 0).val, by omega⟩, flush0_2 _, ?_⟩
  rw [mem_blk]
  obtain ⟨-, -, -, -, e20, e21, e22, -⟩ := idx_facts ⟨(i 0).val, by omega⟩
  intro a
  match a with
  | ⟨0, _⟩ =>
    show win0_2.index _ (0 : Fin 3) * 1 ≤ (i 0).val ∧ (i 0).val < win0_2.index _ (0 : Fin 3) * 1 + 1
    rw [e20]; show (i 0).val * 1 ≤ (i 0).val ∧ (i 0).val < (i 0).val * 1 + 1; omega
  | ⟨1, _⟩ =>
    show win0_2.index _ (1 : Fin 3) * 1 ≤ (i 1).val ∧ (i 1).val < win0_2.index _ (1 : Fin 3) * 1 + 1
    rw [e21]; omega
  | ⟨2, _⟩ =>
    show win0_2.index _ (2 : Fin 3) * 256 ≤ (i 2).val ∧ (i 2).val < win0_2.index _ (2 : Fin 3) * 256 + 256
    rw [e22]; omega

/-- The result array after the region: the row losses. -/
theorem final (c : Dev nD) (y : Classes)
    (hy : ∀ q : Fin 4096, (V m c main_v14 : S1x4096.Idx → EReal) (ix2 (0 : Fin 1) q) = label y q) :
    (dats m 0 c).arrAt 2 cfg0.N = lossBlocks (V m c main_v10 : S4096x32.Idx → EReal) y :=
  (dats m 0 c).arrAt_eq_of_cover 2 (lossBlocks (V m c main_v10 : S4096x32.Idx → EReal) y)
    (fun t _ => flushed_eq m c y hy t) cover

end Array

end Cert.SupCon.Blocks

end
-- ==== Proof.KernelTail.lean ====
/-
  After the region the kernel's program sums the [16, 1, 256] array of row losses over all its axes and divides by
  4096.  Entry (t, 0, p) is row 256 t + p, a bijection onto the 4096 rows, so the sum is the sum of the row losses
  and the program's result is the loss.
-/
import proofs.«159255_j49503793054189_2_alg».proof.Proof.KernelArray
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.SupCon.Blocks

open Cert.KernelIdeal Cert.KernelIdeal.Gen Idealize.ShloMosaic.ValueIdx Cert.SupCon Cert.SupCon.Tile

/-- Entry (t, 0, p) ↦ row 256 t + p is a bijection onto the rows. -/
theorem rowOf_bijective : Function.Bijective rowOf := by
  refine Function.bijective_iff_has_inverse.mpr
    ⟨fun r => ix3 (⟨r.val / 256, by have := r.isLt; omega⟩ : Fin 16) (0 : Fin 1) (⟨r.val % 256, by omega⟩ : Fin 256), ?_, ?_⟩
  · intro j
    have h0 : (j 0).val < 16 := (j 0).isLt
    have h1 : (j 1).val < 1 := (j 1).isLt
    have h2 : (j 2).val < 256 := (j 2).isLt
    funext a
    match a with
    | ⟨0, _⟩ => exact Fin.ext (by show ((j 0).val * 256 + (j 2).val) / 256 = (j 0).val; omega)
    | ⟨1, _⟩ => exact Fin.ext (by show 0 = (j 1).val; omega)
    | ⟨2, _⟩ => exact Fin.ext (by show ((j 0).val * 256 + (j 2).val) % 256 = (j 2).val; omega)
  · intro r
    exact Fin.ext (by show r.val / 256 * 256 + r.val % 256 = r.val; omega)

/-- The sum over the [16, 1, 256] layout is the sum over the rows. -/
theorem sum_lossBlocks (A : Anchor) (y : Classes) :
    ∑ j : S16x1x256.Idx, lossBlocks A y j = ∑ r : Fin 4096, rowLoss A y r :=
  Fintype.sum_bijective rowOf rowOf_bijective _ _ (fun _ => rfl)

/-- The sum of the whole array from the zero word, over the 4096-word: the loss. -/
theorem mean_lossBlocks (A : Anchor) (y : Classes) (j : S_.Idx) :
    Host.divf (F := Ideal) (Host.reduceAdd (F := Ideal) (lossBlocks A y) (constant (F := Ideal) S_ .f32 0x00000000#32) reducesTo_S16x1x256_S_d0_1_2 h_S_)
        (constant (F := Ideal) S_ .f32 0x45800000#32) j
      = loss A y := by
  show Ideal.div (Host.reduceAdd (F := Ideal) (lossBlocks A y) (constant (F := Ideal) S_ .f32 0x00000000#32) reducesTo_S16x1x256_S_d0_1_2 h_S_ j)
      (Ideal.ofBits .f32 0x45800000#32) = _
  have hs : Host.reduceAdd (F := Ideal) (lossBlocks A y) (constant (F := Ideal) S_ .f32 0x00000000#32) reducesTo_S16x1x256_S_d0_1_2 h_S_ j
      = Ideal.ofBits .f32 0x00000000#32 + ∑ k : S16x1x256.Idx, lossBlocks A y k := by
    simp only [Host.reduceAdd, Ideal.hostReduceAdd_def]
    exact Ideal.hostReduceAdd_total reducesTo_S16x1x256_S_d0_1_2 (fun b => b.elim0) (lossBlocks A y) _ j
  rw [hs, Ideal.ofBits_zero_f32, zero_add, sum_lossBlocks]
  rfl

section
variable (m : (ℓ : Loc nD τ sig) → Buf (Elt Ideal) ℓ) (ρ : Dev nD → PrngReg)

/-- What the program's result buffer holds after the lines that follow the region. -/
theorem tail_eq (c : Dev nD) (y : Classes)
    (hy : ∀ q : Fin 4096, (V m c main_v14 : S1x4096.Idx → EReal) (ix2 (0 : Fin 1) q) = label y q) :
    Pipeline.afterTail₀ cfgs (dats m) 0 (V0 m) [hostOps1] c main_v17
      = fun _ => loss (V m c main_v10 : S4096x32.Idx → EReal) y := by
  unfold Pipeline.afterTail₀
  show StableHlo.after hostOps1 _ (Proc.devRef .tc main_v17) = _
  after_results
  rw [Pipeline.withArrays_arr spec0 launch0.win.arr_inj c _ _ 2, final m c y hy]
  funext j
  exact mean_lossBlocks _ y j

end

end Cert.SupCon.Blocks

end
-- ==== Proof.KernelHost.lean ====
/-
  What the kernel program's host operations leave in memory before its pipeline region: the anchor matrix is the
  reference's anchor matrix (the same gather of rows, operation for operation), and the label row holds, at column q,
  the label of class q mod 8.
-/
import Mathlib.Tactic
import proofs.«159255_j49503793054189_2_alg».proof.Proof.Spec
import proofs.«159255_j49503793054189_2_alg».proof.Proof.Gen.ReferenceIdeal.Read
import proofs.«159255_j49503793054189_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.SupCon.Host

open Cert.KernelIdeal Cert.KernelIdeal.Gen Idealize.ShloMosaic Idealize.ShloMosaic.TcCoe Idealize.SL.Sem
open Idealize.ShloMosaic.ValueIdx
open Idealize.ShloMosaic.StableHlo

variable (m : (ℓ : Loc nD τ sig) → Buf (Elt Ideal) ℓ) (c : Dev nD)

/-! ## The anchor matrix -/

/-- The kernel program gathers and lays out the anchor rows by the same operations as the reference: the array the
    region finds is the reference's anchor matrix of the same arguments. -/
theorem anchor_eq : (V m c main_v10 : S4096x32.Idx → EReal)
    = Cert.ReferenceIdeal.Read.val_main_v10 (F := Ideal) (m ((c.tc : Thread nD τ).loc main_arg0)) (m ((c.tc : Thread nD τ).loc main_arg1)) := by
  show StableHlo.after hostOps0 (fun b => m (c, b)) (Proc.devRef .tc main_v10) = _
  after_results
  unfold Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_c_0 Cert.ReferenceIdeal.Read.val_main_v3
    Cert.ReferenceIdeal.Read.val_main_v2 Cert.ReferenceIdeal.Read.val_main_c Cert.ReferenceIdeal.Read.val_main_v1
    Cert.ReferenceIdeal.Read.val_main_v0
  rfl

/-! ## The label row -/

/-- The label row as the host operations build it: the eight labels as one row, repeated over the 512 views, flattened,
    and given a leading unit axis. -/
theorem labels_term : (V m c main_v14 : S1x4096.Idx → EReal)
    = shapeCast S1x4096 (shapeCast S4096 (broadcastInDim S512x8 ![0, 1] bcast_S1x8_S512x8_0_1
        (shapeCast S1x8 (m ((c.tc : Thread nD τ).loc main_arg2) : S8.Idx → EReal) shapeCasts_S8_S1x8))
        shapeCasts_S512x8_S4096) shapeCasts_S4096_S1x4096 := by
  show StableHlo.after hostOps0 (fun b => m (c, b)) (Proc.devRef .tc main_v14) = _
  after_results
  rfl

/-- Read at column q: the flattening puts view q / 8, class q mod 8 at position q, and the repetition over the views
    reads class q mod 8 of the eight labels. -/
theorem labels_read (y : S8.Idx → EReal) (q : Fin 4096) :
    shapeCast S1x4096 (shapeCast S4096 (broadcastInDim S512x8 ![0, 1] bcast_S1x8_S512x8_0_1
        (shapeCast S1x8 y shapeCasts_S8_S1x8)) shapeCasts_S512x8_S4096) shapeCasts_S4096_S1x4096 (ix2 (0 : Fin 1) q)
      = y (ix1 (Cert.SupCon.classOf q)) := by
  have hq := q.isLt
  rw [shapeCast_a_1a_apply _ shapeCasts_S4096_S1x4096 (0 : Fin 1) q]
  rw [shapeCast_apply _ shapeCasts_S512x8_S4096 (ix1 q)
    (ix2 (⟨q.val / 8, by omega⟩ : Fin 512) (⟨q.val % 8, by omega⟩ : Fin 8))
    (by rw [Shape.rowMajor_val_two, Shape.rowMajor_val_one]; show q.val / 8 * 8 + q.val % 8 = q.val; omega)]
  rw [broadcastInDim_apply ![0, 1] bcast_S1x8_S512x8_0_1 _
    (ix2 (⟨q.val / 8, by omega⟩ : Fin 512) (⟨q.val % 8, by omega⟩ : Fin 8))
    (ix2 (0 : Fin 1) (⟨q.val % 8, by omega⟩ : Fin 8))
    (fun a => match a with
      | ⟨0, _⟩ => by show 0 = if (1 : Nat) = 1 then 0 else q.val / 8; rw [if_pos rfl]
      | ⟨1, _⟩ => by show q.val % 8 = if (8 : Nat) = 1 then 0 else q.val % 8; rw [if_neg (by decide)])]
  rw [shapeCast_a_1a_apply y shapeCasts_S8_S1x8 (0 : Fin 1) (⟨q.val % 8, by omega⟩ : Fin 8)]
  rfl

/-- The label row at column q is the label of row q. -/
theorem labels_apply (q : Fin 4096) : (V m c main_v14 : S1x4096.Idx → EReal) (ix2 (0 : Fin 1) q)
    = Cert.SupCon.label (m ((c.tc : Thread nD τ).loc main_arg2)) q := by
  rw [labels_term, labels_read]
  rfl

end Cert.SupCon.Host

end
-- ==== Proof.KernelRun.lean ====
/-
  The kernel program's run, read: every weakly fair execution ends with its result buffer at the loss of the anchor
  matrix and labels computed from the arguments — the anchor matrix being the same gather of the same arguments as
  the reference's, the label row the class labels tiled over the views — and with the arguments unchanged.
-/
import proofs.«159255_j49503793054189_2_alg».proof.Proof.KernelTail
import proofs.«159255_j49503793054189_2_alg».proof.Proof.KernelHost

noncomputable section

open Idealize.ShloMosaic Idealize.ShloMosaic.TcCoe Idealize.SL.Sem
open Idealize.ShloMosaic.Pipeline (Dat)

namespace Cert.SupCon.Blocks

open Cert.KernelIdeal Cert.KernelIdeal.Gen Idealize.ShloMosaic.ValueIdx Cert.SupCon

variable (m : (ℓ : Loc nD τ sig) → Buf (Elt Ideal) ℓ) (ρ : Dev nD → PrngReg)

/-- The result after the lines that follow the region, in the arguments. -/
theorem result_eq (c : Dev nD) :
    Pipeline.afterTail₀ cfgs (dats m) 0 (V0 m) [hostOps1] c main_v17
      = fun _ => loss (Cert.ReferenceIdeal.Read.val_main_v10 (F := Ideal) (m ((c.tc : Thread nD τ).loc main_arg0))
          (m ((c.tc : Thread nD τ).loc main_arg1))) (m ((c.tc : Thread nD τ).loc main_arg2)) := by
  rw [tail_eq m c (m ((c.tc : Thread nD τ).loc main_arg2)) (Host.labels_apply m c), Host.anchor_eq m c]

/-- The frame run re-posted: the result at the loss, the arguments unchanged. -/
theorem run : θ_run defs (onTc (τ := τ) (main (F := Ideal))) ⟨m, fun _ => 0, ρ⟩ fun r => ∀ c : Dev nD,
      r.2.mem ((c.tc : Thread nD τ).loc main_v17)
        = (fun _ => loss (Cert.ReferenceIdeal.Read.val_main_v10 (F := Ideal) (m ((c.tc : Thread nD τ).loc main_arg0))
            (m ((c.tc : Thread nD τ).loc main_arg1))) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.SupCon.Blocks

end
-- ==== Proof.RefLoss.lean ====
/-
  The reference side of the supervised contrastive loss: the reference program's stages, read at an index,
  are the quantities of the specification (logit, row maximum, shifted logit, the label and diagonal masks,
  the sum over the negatives, the log-probability, the sums over the positives, the row loss, the loss).
  The anchor matrix (the gathered rows) is kept as an opaque matrix throughout.
-/
import Mathlib.Tactic
import proofs.«159255_j49503793054189_2_alg».proof.Proof.Spec
import proofs.«159255_j49503793054189_2_alg».proof.Proof.Gen.ReferenceIdeal.Read
import Idealize.ShloMosaic.Lib.ValueIdx
import Idealize.ShloMosaic.PureOps.Ideal.Laws
import Idealize.ShloMosaic.PureOps.Reduce

noncomputable section

namespace Cert.SupCon.Ref

open Cert.ReferenceIdeal Cert.ReferenceIdeal.Gen Cert.ReferenceIdeal.Read
open Idealize.ShloMosaic Idealize.ShloMosaic.ValueIdx
open Cert.SupCon
open Classical

variable (x0 : (⟨S2x32x64x64x32, .f32⟩ : BufTy).Contents (Elt Ideal))
  (x1 : (⟨S8x512, .i32⟩ : BufTy).Contents (Elt Ideal))
  (x2 : (⟨S8, .f32⟩ : BufTy).Contents (Elt Ideal))

/-! ## The logit -/

/-- The left operand's index of the contraction at (r, q), term k, is (r, k). -/
theorem lidx12 (r q : Fin 4096) (k : Fin 32) : lidx_main_v12 (ix2 r q) k = ix2 r k := by
  funext a; match a with | ⟨0, _⟩ => rfl | ⟨1, _⟩ => rfl

/-- The right operand is the transpose: its index at (r, q), term k, read back through the transpose, is (q, k). -/
theorem ridx12 (r q : Fin 4096) (k : Fin 32) : idx_main_v11 (ridx_main_v12 (ix2 r q) k) = ix2 q k := by
  funext a; match a with | ⟨0, _⟩ => rfl | ⟨1, _⟩ => rfl

/-- The scaled similarity matrix at (r, q) is the logit. -/
theorem v14_eq (r q : Fin 4096) :
    val_main_v14 (F := Ideal) x0 x1 (ix2 r q) = logit (val_main_v10 (F := Ideal) x0 x1) r q := by
  rw [val_main_v14_apply, val_main_v12_apply, val_main_v13_apply, val_main_cst_apply, Ideal.hostDivf_def,
    Ideal.ofBits_def, div_temp]
  unfold logit
  congr 1

/-! ## The row maximum -/

/-- The reduced index r with coordinate k put back on the reduced axis is (r, k). -/
theorem lift_ix1 (h : S4096x4096.Reduces [1] S4096) (r : Fin 4096) (k : Fin (S4096x4096.size 1)) :
    h.lift (ix1 r) k = ix2 r (⟨k.val, k.isLt⟩ : Fin 4096) := by
  funext c; apply Fin.ext
  fin_cases c <;> rfl

/-- A fold of the maximum from the least element is the supremum. -/
theorem fold_max_bot {ι : Type} (s : Finset ι) (f : ι → EReal) : s.fold max ⊥ f = s.sup f := by
  classical
  induction s using Finset.induction_on with
  | empty => simp
  | insert a s ha ih => rw [Finset.fold_insert ha, Finset.sup_insert, ih]

/-- The row maximum at r is the supremum of the row's logits. -/
theorem v15_eq (r : Fin 4096) :
    val_main_v15 (F := Ideal) x0 x1 (ix1 r) = rowMax (val_main_v10 (F := Ideal) x0 x1) r := by
  have h : S4096x4096.Reduces [1] S4096 := by decide
  unfold val_main_v15
  rw [Host.reduce_eq_fold_single FloatOps.maximumf _ _ reducesTo_S4096x4096_S4096_d1 h h_S_]
  have hb : (val_main_cst_1 (F := Ideal)) (Shape.Idx.first h_S_) = (⊥ : EReal) := by
    rw [val_main_cst_1_apply, Ideal.ofBits_def]; simp [Ideal.ofBits, Ideal.ieee]
  have hf : (val_main_v14 (F := Ideal) x0 x1 ∘ h.lift (ix1 r))
      = fun k : Fin 4096 => logit (val_main_v10 (F := Ideal) x0 x1) r k := by
    funext k
    show val_main_v14 (F := Ideal) x0 x1 (h.lift (ix1 r) k) = _
    rw [lift_ix1, v14_eq]
    rfl
  rw [hb, hf]
  show Finset.fold max (⊥ : EReal) (fun k : Fin 4096 => logit (val_main_v10 (F := Ideal) x0 x1) r k) Finset.univ = _
  rw [fold_max_bot, Finset.sup_univ_eq_iSup]
  rfl

/-! ## The shifted logit -/

/-- The broadcast of the row maxima back over the columns reads row r's maximum at (r, q). -/
theorem idx1617 (r q : Fin 4096) : idx_main_v16 (idx_main_v17 (ix2 r q)) = ix1 r := by
  funext a; match a with | ⟨0, _⟩ => rfl

/-- The logit less its row's maximum, at (r, q). -/
theorem v18_eq (r q : Fin 4096) :
    val_main_v18 (F := Ideal) x0 x1 (ix2 r q) = shifted (val_main_v10 (F := Ideal) x0 x1) r q := by
  rw [val_main_v18_apply, val_main_v17_apply, val_main_v16_apply, idx1617, v14_eq, v15_eq, Ideal.subf_def]
  rfl

/-! ## The label mask -/

/-- Through the two reshapes and the broadcast between them, entry (r, q) of the 4096 × 4096 mask reads entry
    (r mod 8, q mod 8) of the 8 × 8 class table: the row index is view * 8 + class. -/
theorem idx252627 (r q : Fin 4096) :
    idx_main_v25 (idx_main_v26 (idx_main_v27 (ix2 r q))) = ix2 (classOf r) (classOf q) := by
  have hr := r.isLt
  have hq := q.isLt
  funext a
  match a with
  | ⟨0, _⟩ =>
    apply Fin.ext
    show ((((0 : Nat) * 8 + (r.val * 4096 + q.val) / 4096 % 8) * 1 + 0) * 8 + (r.val * 4096 + q.val) % 8) / 8 = r.val % 8
    omega
  | ⟨1, _⟩ =>
    apply Fin.ext
    show ((((0 : Nat) * 8 + (r.val * 4096 + q.val) / 4096 % 8) * 1 + 0) * 8 + (r.val * 4096 + q.val) % 8) % 8 = q.val % 8
    omega

/-- The class table's left operand at (a, b) is label a … -/
theorem idx1921 (a b : Fin 8) : idx_main_v19 (idx_main_v21 (ix2 a b)) = ix1 a := by
  funext c; match c with | ⟨0, _⟩ => rfl

/-- … and its right operand is label b. -/
theorem idx2022 (a b : Fin 8) : idx_main_v20 (idx_main_v22 (ix2 a b)) = ix1 b := by
  funext c; match c with | ⟨0, _⟩ => rfl

/-- A one-bit truth value converted to a float is 1 or 0. -/
theorem uitofp_ofBool (p : Prop) [Decidable p] :
    (FloatOps.uitofp (F := Ideal) .f32 (BitVec.ofBool (decide p)) : EReal) = if p then 1 else 0 := by
  by_cases h : p
  · rw [if_pos h]; simp [FloatOps.uitofp, h]
  · rw [if_neg h]; simp [FloatOps.uitofp, h]

/-- The label mask at (r, q): 1 when the rows' labels agree, else 0. -/
theorem v27_eq (r q : Fin 4096) :
    val_main_v27 (F := Ideal) x2 (ix2 r q) = if label x2 r = label x2 q then (1 : EReal) else 0 := by
  rw [val_main_v27_apply, val_main_v26_apply, val_main_v25_apply, idx252627, val_main_v24_apply, val_main_v23_apply,
    val_main_v21_apply, val_main_v22_apply, val_main_v19_apply, val_main_v20_apply, idx1921, idx2022,
    Ideal.cmpf_def]
  unfold Ideal.cmp
  exact uitofp_ofBool _

/-! ## The diagonal mask and the positives -/

/-- Two row numbers below 4096 are equal as 32-bit words exactly when they are equal. -/
theorem ofNat_eq_iff (r q : Fin 4096) : (BitVec.ofNat 32 r.val + 0#32 == BitVec.ofNat 32 q.val) = decide (r = q) := by
  have hr := r.isLt
  have hq := q.isLt
  rw [BitVec.add_zero]
  by_cases h : r = q
  · subst h; simp
  · have hv : r.val ≠ q.val := fun e => h (Fin.ext e)
    have : ¬ (BitVec.ofNat 32 r.val = BitVec.ofNat 32 q.val) := by
      intro e
      have := congrArg BitVec.toNat e
      simp only [BitVec.toNat_ofNat] at this
      omega
    simp [h, this]

/-- The diagonal mask at (r, q): 1 on the diagonal, else 0. -/
theorem v35_eq (r q : Fin 4096) :
    val_main_v35 (F := Ideal) (ix2 r q) = if r = q then (1 : EReal) else 0 := by
  rw [val_main_v35_apply, val_main_v34_apply, val_main_v33_apply, val_main_v30_apply, val_main_v31_apply,
    val_main_v32_apply, val_main_c_3_apply]
  unfold IntOp.cmpi IntOp.addi
  show FloatOps.uitofp (F := Ideal) .f32 (BitVec.ofBool (BitVec.ofNat 32 r.val + 0#32 == BitVec.ofNat 32 q.val)) = _
  rw [ofNat_eq_iff]
  exact uitofp_ofBool _

/-- On the extended reals 1 - 1 = 0 (both finite). -/
theorem one_sub_one : (1 : EReal) - 1 = 0 := by
  rw [← EReal.coe_one, ← EReal.coe_sub, sub_self, EReal.coe_zero]

/-- The word 0x3F800000, broadcast, is 1 everywhere. -/
theorem v36_eq (i : S4096x4096.Idx) : val_main_v36 (F := Ideal) i = (1 : EReal) := by
  rw [val_main_v36_apply, val_main_cst_4_apply, Ideal.ofBits_def, ofBits_one]

theorem v28_eq (i : S4096x4096.Idx) : val_main_v28 (F := Ideal) i = (1 : EReal) := by
  rw [val_main_v28_apply, val_main_cst_2_apply, Ideal.ofBits_def, ofBits_one]

/-- The mask of the positives at (r, q): 1 when q is a positive of r (same label, another row), else 0. -/
theorem v38_eq (r q : Fin 4096) :
    val_main_v38 (F := Ideal) x2 (ix2 r q) = if positive x2 r q then (1 : EReal) else 0 := by
  rw [val_main_v38_apply, val_main_v37_apply, v36_eq, v27_eq, v35_eq, Ideal.mulf_def, Ideal.subf_def]
  unfold positive
  by_cases hl : label x2 r = label x2 q
  · by_cases he : r = q
    · rw [if_pos hl, if_pos he, if_neg (show ¬(label x2 r = label x2 q ∧ r ≠ q) from fun hp => hp.2 he), one_sub_one,
        mul_zero]
    · rw [if_pos hl, if_neg he, if_pos ⟨hl, he⟩, sub_zero, mul_one]
  · rw [if_neg hl, if_neg (show ¬(label x2 r = label x2 q ∧ r ≠ q) from fun hp => hl hp.1), zero_mul]

/-! ## The sum over the negatives -/

/-- The exponential of the shifted logit, kept where the labels differ: 0 where they agree. -/
theorem v40_eq (r q : Fin 4096) :
    val_main_v40 (F := Ideal) x0 x1 x2 (ix2 r q)
      = if label x2 r = label x2 q then (0 : EReal) else Ideal.exp (shifted (val_main_v10 (F := Ideal) x0 x1) r q) := by
  rw [val_main_v40_apply, val_main_v39_apply, val_main_v29_apply, v28_eq, v27_eq, v18_eq, Ideal.mulf_def,
    Ideal.subf_def, Ideal.hostUnary_exp_def]
  by_cases hl : label x2 r = label x2 q
  · rw [if_pos hl, if_pos hl, one_sub_one, mul_zero]
  · rw [if_neg hl, if_neg hl, sub_zero, mul_one]

/-- The reduction over the columns reads row r at (r, k). -/
theorem idx41 (r k : Fin 4096) : idx_main_v41 (ix1 r) k = ix2 r k := by
  funext a; match a with | ⟨0, _⟩ => rfl | ⟨1, _⟩ => rfl

/-- The sum over the negatives of row r. -/
theorem v41_eq (r : Fin 4096) :
    val_main_v41 (F := Ideal) x0 x1 x2 (ix1 r) = negSum (val_main_v10 (F := Ideal) x0 x1) x2 r := by
  rw [val_main_v41_apply, val_main_cst_5_apply, Ideal.ofBits_def, Ideal.ofBits_zero_f32, zero_add]
  unfold negSum
  refine Finset.sum_congr rfl fun k _ => ?_
  rw [idx41, v40_eq]

/-! ## The log-probability -/

/-- The broadcast of the negative sums back over the columns reads row r's sum at (r, q). -/
theorem idx4243 (r q : Fin 4096) : idx_main_v42 (idx_main_v43 (ix2 r q)) = ix1 r := by
  funext a; match a with | ⟨0, _⟩ => rfl

/-- The log-probability of q against r's negatives, at (r, q). -/
theorem v46_eq (r q : Fin 4096) :
    val_main_v46 (F := Ideal) x0 x1 x2 (ix2 r q) = logProb (val_main_v10 (F := Ideal) x0 x1) x2 r q := by
  rw [val_main_v46_apply, val_main_v45_apply, val_main_v44_apply, val_main_v43_apply, val_main_v42_apply, idx4243,
    val_main_v39_apply, v18_eq, v41_eq, Ideal.subf_def, Ideal.hostUnary_log_def, Ideal.addf_def,
    Ideal.hostUnary_exp_def]
  rfl

/-- The log-probability kept on the positives: 0 elsewhere. -/
theorem v47_eq (r q : Fin 4096) :
    val_main_v47 (F := Ideal) x0 x1 x2 (ix2 r q)
      = if positive x2 r q then logProb (val_main_v10 (F := Ideal) x0 x1) x2 r q else 0 := by
  rw [val_main_v47_apply, v38_eq, v46_eq, Ideal.mulf_def]
  by_cases hp : positive x2 r q
  · rw [if_pos hp, if_pos hp, one_mul]
  · rw [if_neg hp, if_neg hp, zero_mul]

/-! ## The sums over the positives, the row loss, the loss -/

theorem idx48 (r k : Fin 4096) : idx_main_v48 (ix1 r) k = ix2 r k := by
  funext a; match a with | ⟨0, _⟩ => rfl | ⟨1, _⟩ => rfl

theorem idx49 (r k : Fin 4096) : idx_main_v49 (ix1 r) k = ix2 r k := by
  funext a; match a with | ⟨0, _⟩ => rfl | ⟨1, _⟩ => rfl

/-- The sum of the log-probabilities over r's positives. -/
theorem v48_eq (r : Fin 4096) :
    val_main_v48 (F := Ideal) x0 x1 x2 (ix1 r) = posSum (val_main_v10 (F := Ideal) x0 x1) x2 r := by
  rw [val_main_v48_apply, val_main_cst_6_apply, Ideal.ofBits_def, Ideal.ofBits_zero_f32, zero_add]
  unfold posSum
  refine Finset.sum_congr rfl fun k _ => ?_
  rw [idx48, v47_eq]

/-- The number of r's positives. -/
theorem v49_eq (r : Fin 4096) :
    val_main_v49 (F := Ideal) x2 (ix1 r) = posCount x2 r := by
  rw [val_main_v49_apply, val_main_cst_7_apply, Ideal.ofBits_def, Ideal.ofBits_zero_f32, zero_add]
  unfold posCount
  refine Finset.sum_congr rfl fun k _ => ?_
  rw [idx49, v38_eq]

/-- The loss of row r. -/
theorem v52_eq (r : Fin 4096) :
    val_main_v52 (F := Ideal) x0 x1 x2 (ix1 r) = rowLoss (val_main_v10 (F := Ideal) x0 x1) x2 r := by
  rw [val_main_v52_apply, val_main_v51_apply, val_main_cst_8_apply, val_main_v50_apply, v48_eq, v49_eq,
    Ideal.mulf_def, Ideal.hostDivf_def, Ideal.ofBits_def]
  rfl

/-- A rank-1 index set of extent 4096 is Fin 4096. -/
def idxEquiv1 : S4096.Idx ≃ Fin 4096 where
  toFun j := j 0
  invFun r := ix1 r
  left_inv j := (eq_ix1 j).symm
  right_inv _ := rfl

/-- The reference's result is the loss of the anchor matrix and the labels. -/
theorem ref_loss (x0 : (⟨Cert.ReferenceIdeal.S2x32x64x64x32, .f32⟩ : BufTy).Contents (Elt Ideal))
    (x1 : (⟨Cert.ReferenceIdeal.S8x512, .i32⟩ : BufTy).Contents (Elt Ideal))
    (x2 : (⟨Cert.ReferenceIdeal.S8, .f32⟩ : BufTy).Contents (Elt Ideal)) :
    Cert.ReferenceIdeal.Read.val_main_v54 (F := Ideal) x0 x1 x2
      = fun _ => Cert.SupCon.loss (Cert.ReferenceIdeal.Read.val_main_v10 (F := Ideal) x0 x1) x2 := by
  funext i
  rw [val_main_v54_apply, val_main_v53_apply, val_main_cst_9_apply, val_main_cst_10_apply, Ideal.ofBits_def,
    Ideal.ofBits_def, Ideal.ofBits_zero_f32, zero_add, Ideal.hostDivf_def]
  unfold loss
  have hs : ∑ j : S4096.Idx, val_main_v52 (F := Ideal) x0 x1 x2 j
      = ∑ r : Fin 4096, rowLoss (val_main_v10 (F := Ideal) x0 x1) x2 r := by
    refine Fintype.sum_equiv idxEquiv1 _ _ fun j => ?_
    exact (congrArg (val_main_v52 (F := Ideal) x0 x1 x2) (eq_ix1 j)).trans (v52_eq x0 x1 x2 (j 0))
  rw [hs]

end Cert.SupCon.Ref

end
-- ==== Proof.lean ====
/-
  The kernel computes the supervised contrastive loss tile by tile (256 anchor rows against all 4096 per grid point,
  one row loss per row, then the mean of the 4096 row losses on the host); the reference computes it with whole
  [4096, 4096] matrices.  At the ideal instance both are one function of the anchor matrix and the class labels
  (Proof/Spec.lean): the kernel side is Proof/TileRows.lean (the body's stages at an index), Proof/TileLoss.lean (a
  tile's stored row is the specification's row loss), Proof/KernelArray.lean (the sixteen blocks tile the result),
  Proof/KernelTail.lean and Proof/KernelRun.lean (the host lines around the region); the reference side is
  Proof/RefLoss.lean over the generated run.  The anchor matrix is the same gather of the same arguments in both
  programs and is never opened.  The one constant the two programs spell differently is the temperature: the
  reference divides by the f32 word of 0.07, the kernel multiplies by a constant named as that word's exact
  reciprocal, and on the extended reals the two maps agree everywhere.  No finiteness of the inputs is used.
-/
import proofs.«159255_j49503793054189_2_alg».proof.Defs
import proofs.«159255_j49503793054189_2_alg».proof.Proof.Gen.Kernel
import proofs.«159255_j49503793054189_2_alg».proof.Proof.Gen.Kernel.Skeleton
import proofs.«159255_j49503793054189_2_alg».proof.Proof.Gen.Kernel.Launch
import proofs.«159255_j49503793054189_2_alg».proof.Proof.Gen.Kernel.Points
import proofs.«159255_j49503793054189_2_alg».proof.Proof.Gen.Kernel.Frame
import proofs.«159255_j49503793054189_2_alg».proof.Proof.Gen.KernelIdeal
import proofs.«159255_j49503793054189_2_alg».proof.Proof.Gen.KernelIdeal.Skeleton
import proofs.«159255_j49503793054189_2_alg».proof.Proof.Gen.KernelIdeal.Launch
import proofs.«159255_j49503793054189_2_alg».proof.Proof.Gen.KernelIdeal.Points
import proofs.«159255_j49503793054189_2_alg».proof.Proof.Gen.KernelIdeal.Frame
import proofs.«159255_j49503793054189_2_alg».proof.Proof.Gen.ReferenceIdeal
import proofs.«159255_j49503793054189_2_alg».proof.Proof.Gen.Pre_finite_inputs
import proofs.«159255_j49503793054189_2_alg».proof.Proof.Gen.ReferenceIdeal.Run
import proofs.«159255_j49503793054189_2_alg».proof.Proof.Gen.ReferenceIdeal.Read
import proofs.«159255_j49503793054189_2_alg».proof.Proof.KernelRun
import proofs.«159255_j49503793054189_2_alg».proof.Proof.RefLoss
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one named constant: the table gives the reciprocal temperature its exact rational value. -/
theorem preserves : Cert.preserves_Kernel_KernelIdeal :=
  IdealRules.named_const.statement Cert.KernelIdeal.κ "inv_temp" .f32 0x41649249#32 ((134217728 / 9395241 : ℝ) : EReal) rfl

/-- Both programs end at the loss of the same anchor matrix and labels. -/
theorem algebraic : Cert.algebraic_KernelIdeal_ReferenceIdeal := by
  intro m ρ m' ρ' _ hagree
  refine ⟨_, Cert.SupCon.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.SupCon.Ref.ref_loss, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
